-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096 : Shape := ⟨1, ![4096]⟩
abbrev S513x16384 : Shape := ⟨2, ![513, 16384]⟩
abbrev S16384 : Shape := ⟨1, ![16384]⟩
abbrev S16384x64 : Shape := ⟨2, ![16384, 64]⟩
abbrev S_ : Shape := ⟨0, ![]⟩
abbrev S4096x1 : Shape := ⟨2, ![4096, 1]⟩
abbrev S4096x513 : Shape := ⟨2, ![4096, 513]⟩
abbrev S4096x16384 : Shape := ⟨2, ![4096, 16384]⟩
abbrev S1x16384 : Shape := ⟨2, ![1, 16384]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096 : S_.BroadcastsInDim S4096 (![] : Fin 0 → Fin S4096.rank)
  reducesTo_S4096_S_d0 : S4096.ReducesTo [0] S_
  bcast_S_S513x16384 : S_.BroadcastsInDim S513x16384 (![] : Fin 0 → Fin S513x16384.rank)
  reducesTo_S513x16384_S_d0_1 : S513x16384.ReducesTo [0, 1] S_
  bcast_S_S16384 : S_.BroadcastsInDim S16384 (![] : Fin 0 → Fin S16384.rank)
  reducesTo_S16384_S_d0 : S16384.ReducesTo [0] S_
  bcast_S_S16384x64 : S_.BroadcastsInDim S16384x64 (![] : Fin 0 → Fin S16384x64.rank)
  reducesTo_S16384x64_S_d0_1 : S16384x64.ReducesTo [0, 1] S_
  bcast_S4096_S4096x1_0 : S4096.BroadcastsInDim S4096x1 (![0] : Fin 1 → Fin S4096x1.rank)
  concatenates_S4096x512_S4096x1_S4096x513_d1 : Shape.Concatenates [S4096x512, S4096x1] S4096x513 1
  bcast_S16384_S1x16384_1 : S16384.BroadcastsInDim S1x16384 (![1] : Fin 1 → Fin S1x16384.rank)
  bcast_S1x16384_S4096x16384_0_1 : S1x16384.BroadcastsInDim S4096x16384 (![0, 1] : Fin 2 → Fin S4096x16384.rank)
  reducesTo_S4096x16384_S4096_d1 : S4096x16384.ReducesTo [1] S4096
  bcast_S4096x1_S4096x16384_0_1 : S4096x1.BroadcastsInDim S4096x16384 (![0, 1] : Fin 2 → Fin S4096x16384.rank)
  bcast_S_S4096x1 : S_.BroadcastsInDim S4096x1 (![] : Fin 0 → Fin S4096x1.rank)
  reducesTo_S4096x1_S_d0_1 : S4096x1.ReducesTo [0, 1] S_
  dot_S4096x513_S513x16384_S4096x16384_1_0_0_1_n_n_wf : DotDims.WF S4096x513 S513x16384 S4096x16384 [1] [0] [0] [1] [] []

variable [Facts]

def dot_S4096x513_S513x16384_S4096x16384_1_0_0_1_n_n : DotDims S4096x513 S513x16384 S4096x16384 where
  lhsContracting := [1]
  rhsContracting := [0]
  lhsNonContracting := [0]
  rhsNonContracting := [1]
  lhsBatch := []
  rhsBatch := []
  wf := dot_S4096x513_S513x16384_S4096x16384_1_0_0_1_n_n_wf
def fn_part3 {F : FTy → Type} [FloatOps F] (main_v28 : IVec S_ 1) (main_v52 : FVec F S4096x1 .f32) (main_v53 : FVec F S4096x1 .f32) : IVec S_ 1 :=
  let main_v54 : IVec S4096x1 1 := cmpf .une main_v52 main_v53
  let main_c_16 : IVec S_ 1 := constantI S_ 1 1#1
  let main_v55 : IVec S_ 1 := (fun x v => Host.reduce IntOp.andi x v reducesTo_S4096x1_S_d0_1 h_S_) main_v54 main_c_16
  let main_v56 : IVec S_ 1 := andi main_v28 main_v55
  main_v56

def fn_part2 {F : FTy → Type} [FloatOps F] (main_arg5 : FVec F S16384 .f32) (main_v28 : IVec S_ 1) (main_v34 : FVec F S4096x16384 .f32) (main_cst_10 : FVec F S_ .f32) : IVec S_ 1 :=
  let main_v35 : FVec F S4096 .f32 := (fun x v => Host.reduce FloatOps.maximumf x v reducesTo_S4096x16384_S4096_d1 h_S_) main_v34 main_cst_10
  let main_cst_11 : FVec F S_ .f32 := constant S_ .f32 0xFF800000#32
  let main_v36 : FVec F S4096 .f32 := broadcastInDim S4096 ![] bcast_S_S4096 main_cst_11
  let main_v37 : FVec F S4096 .f32 := maximumf main_v36 main_v35
  let main_v38 : FVec F S4096x1 .f32 := broadcastInDim S4096x1 ![0] bcast_S4096_S4096x1_0 main_v37
  let main_v39 : FVec F S4096x16384 .f32 := broadcastInDim S4096x16384 ![0, 1] bcast_S4096x1_S4096x16384_0_1 main_v38
  let main_v40 : FVec F S4096x16384 .f32 := subf main_v34 main_v39
  let main_v41 : FVec F S4096x16384 .f32 := Host.exp main_v40
  let main_cst_12 : FVec F S_ .f32 := constant S_ .f32 0x00000000#32
  let main_v42 : FVec F S4096 .f32 := (fun x v => Host.reduceAdd x v reducesTo_S4096x16384_S4096_d1 h_S_) main_v41 main_cst_12
  let main_v43 : FVec F S4096x1 .f32 := broadcastInDim S4096x1 ![0] bcast_S4096_S4096x1_0 main_v42
  let main_v44 : FVec F S4096x16384 .f32 := broadcastInDim S4096x16384 ![0, 1] bcast_S4096x1_S4096x16384_0_1 main_v43
  let main_v45 : FVec F S4096x16384 .f32 := Host.divf main_v41 main_v44
  let main_v46 : FVec F S1x16384 .f32 := broadcastInDim S1x16384 ![1] bcast_S16384_S1x16384_1 main_arg5
  let main_v47 : FVec F S4096x16384 .f32 := broadcastInDim S4096x16384 ![0, 1] bcast_S1x16384_S4096x16384_0_1 main_v46
  let main_v48 : FVec F S4096x16384 .f32 := mulf main_v45 main_v47
  let main_cst_13 : FVec F S_ .f32 := constant S_ .f32 0x00000000#32
  let main_v49 : FVec F S4096 .f32 := (fun x v => Host.reduceAdd x v reducesTo_S4096x16384_S4096_d1 h_S_) main_v48 main_cst_13
  let main_v50 : FVec F S4096x1 .f32 := broadcastInDim S4096x1 ![0] bcast_S4096_S4096x1_0 main_v49
  let main_cst_14 : FVec F S_ .f32 := constant S_ .f32 0x358637BD#32
  let main_v51 : FVec F S4096x1 .f32 := broadcastInDim S4096x1 ![] bcast_S_S4096x1 main_cst_14
  let main_v52 : FVec F S4096x1 .f32 := addf main_v50 main_v51
  let main_cst_15 : FVec F S_ .f32 := constant S_ .f32 0x00000000#32
  let main_v53 : FVec F S4096x1 .f32 := broadcastInDim S4096x1 ![] bcast_S_S4096x1 main_cst_15
  fn_part3 (F := F) main_v28 main_v52 main_v53

def fn_part1 {F : FTy → Type} [FloatOps F] (main_arg0 : FVec F S4096x512 .f32) (main_arg1 : FVec F S4096 .f32) (main_arg2 : FVec F S513x16384 .f32) (main_arg3 : FVec F S16384 .f32) (main_arg4 : FVec F S16384x64 .f32) (main_arg5 : FVec F S16384 .f32) (main_v13 : IVec S_ 1) (main_v16 : IVec S16384 1) : IVec S_ 1 :=
  let main_c_5 : IVec S_ 1 := constantI S_ 1 1#1
  let main_v17 : IVec S_ 1 := (fun x v => Host.reduce IntOp.andi x v reducesTo_S16384_S_d0 h_S_) main_v16 main_c_5
  let main_v18 : IVec S_ 1 := andi main_v13 main_v17
  let main_v19 : FVec F S16384x64 .f32 := Host.absf main_arg4
  let main_cst_6 : FVec F S_ .f32 := constant S_ .f32 0x7F800000#32
  let main_v20 : FVec F S16384x64 .f32 := broadcastInDim S16384x64 ![] bcast_S_S16384x64 main_cst_6
  let main_v21 : IVec S16384x64 1 := cmpf .olt main_v19 main_v20
  let main_c_7 : IVec S_ 1 := constantI S_ 1 1#1
  let main_v22 : IVec S_ 1 := (fun x v => Host.reduce IntOp.andi x v reducesTo_S16384x64_S_d0_1 h_S_) main_v21 main_c_7
  let main_v23 : IVec S_ 1 := andi main_v18 main_v22
  let main_v24 : FVec F S16384 .f32 := Host.absf main_arg5
  let main_cst_8 : FVec F S_ .f32 := constant S_ .f32 0x7F800000#32
  let main_v25 : FVec F S16384 .f32 := broadcastInDim S16384 ![] bcast_S_S16384 main_cst_8
  let main_v26 : IVec S16384 1 := cmpf .olt main_v24 main_v25
  let main_c_9 : IVec S_ 1 := constantI S_ 1 1#1
  let main_v27 : IVec S_ 1 := (fun x v => Host.reduce IntOp.andi x v reducesTo_S16384_S_d0 h_S_) main_v26 main_c_9
  let main_v28 : IVec S_ 1 := andi main_v23 main_v27
  let main_v29 : FVec F S4096x1 .f32 := broadcastInDim S4096x1 ![0] bcast_S4096_S4096x1_0 main_arg1
  let main_v30 : FVec F S4096x513 .f32 := (fun a b => concatenate S4096x513 1 [⟨S4096x512, a⟩, ⟨S4096x1, b⟩] concatenates_S4096x512_S4096x1_S4096x513_d1) main_arg0 main_v29
  let main_v31 : FVec F S4096x16384 .f32 := (fun l r => Host.dotGeneral dot_S4096x513_S513x16384_S4096x16384_1_0_0_1_n_n none l r) main_v30 main_arg2
  let main_v32 : FVec F S1x16384 .f32 := broadcastInDim S1x16384 ![1] bcast_S16384_S1x16384_1 main_arg3
  let main_v33 : FVec F S4096x16384 .f32 := broadcastInDim S4096x16384 ![0, 1] bcast_S1x16384_S4096x16384_0_1 main_v32
  let main_v34 : FVec F S4096x16384 .f32 := addf main_v31 main_v33
  let main_cst_10 : FVec F S_ .f32 := constant S_ .f32 0xFF800000#32
  fn_part2 (F := F) main_arg5 main_v28 main_v34 main_cst_10

def fn {F : FTy → Type} [FloatOps F] (main_arg0 : FVec F S4096x512 .f32) (main_arg1 : FVec F S4096 .f32) (main_arg2 : FVec F S513x16384 .f32) (main_arg3 : FVec F S16384 .f32) (main_arg4 : FVec F S16384x64 .f32) (main_arg5 : FVec F S16384 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S513x16384 .f32 := Host.absf main_arg2
  let main_cst_2 : FVec F S_ .f32 := constant S_ .f32 0x7F800000#32
  let main_v10 : FVec F S513x16384 .f32 := broadcastInDim S513x16384 ![] bcast_S_S513x16384 main_cst_2
  let main_v11 : IVec S513x16384 1 := cmpf .olt main_v9 main_v10
  let main_c_3 : IVec S_ 1 := constantI S_ 1 1#1
  let main_v12 : IVec S_ 1 := (fun x v => Host.reduce IntOp.andi x v reducesTo_S513x16384_S_d0_1 h_S_) main_v11 main_c_3
  let main_v13 : IVec S_ 1 := andi main_v8 main_v12
  let main_v14 : FVec F S16384 .f32 := Host.absf main_arg3
  let main_cst_4 : FVec F S_ .f32 := constant S_ .f32 0x7F800000#32
  let main_v15 : FVec F S16384 .f32 := broadcastInDim S16384 ![] bcast_S_S16384 main_cst_4
  let main_v16 : IVec S16384 1 := cmpf .olt main_v14 main_v15
  fn_part1 (F := F) main_arg0 main_arg1 main_arg2 main_arg3 main_arg4 main_arg5 main_v13 main_v16
-- ==== Kernel.lean ====
abbrev S4096x512 : Shape := ⟨2, ![4096, 512]⟩
abbrev S4096 : Shape := ⟨1, ![4096]⟩
abbrev S513x16384 : Shape := ⟨2, ![513, 16384]⟩
abbrev S16384 : Shape := ⟨1, ![16384]⟩
abbrev S16384x64 : Shape := ⟨2, ![16384, 64]⟩
abbrev S512x16384 : Shape := ⟨2, ![512, 16384]⟩
abbrev S1x16384 : Shape := ⟨2, ![1, 16384]⟩
abbrev S4096x1 : Shape := ⟨2, ![4096, 1]⟩
abbrev S_ : Shape := ⟨0, ![]⟩
abbrev S16384x1 : Shape := ⟨2, ![16384, 1]⟩
abbrev S16384x66 : Shape := ⟨2, ![16384, 66]⟩
abbrev S4096x64 : Shape := ⟨2, ![4096, 64]⟩
abbrev S4096x16384 : Shape := ⟨2, ![4096, 16384]⟩
abbrev S128x512 : Shape := ⟨2, ![128, 512]⟩
abbrev S128x1 : Shape := ⟨2, ![128, 1]⟩
abbrev S128x64 : Shape := ⟨2, ![128, 64]⟩
abbrev S128x16384 : Shape := ⟨2, ![128, 16384]⟩
abbrev S128x66 : Shape := ⟨2, ![128, 66]⟩

abbrev nBuf : Space → Nat
  | .hbm => 25
  | .vmem => 13
  | .smem => 0
  | _ => 0

abbrev bufTy : (tb : Table) → Fin (tcTables nBuf tb) → BufTy
  | .hbm, ⟨0, _⟩ => ⟨S4096x512, .f32⟩
  | .hbm, ⟨1, _⟩ => ⟨S4096, .f32⟩
  | .hbm, ⟨2, _⟩ => ⟨S513x16384, .f32⟩
  | .hbm, ⟨3, _⟩ => ⟨S16384, .f32⟩
  | .hbm, ⟨4, _⟩ => ⟨S16384x64, .f32⟩
  | .hbm, ⟨5, _⟩ => ⟨S16384, .f32⟩
  | .hbm, ⟨6, _⟩ => ⟨S4096x512, .bf16⟩
  | .hbm, ⟨7, _⟩ => ⟨S512x16384, .f32⟩
  | .hbm, ⟨8, _⟩ => ⟨S512x16384, .bf16⟩
  | .hbm, ⟨9, _⟩ => ⟨S1x16384, .f32⟩
  | .hbm, ⟨10, _⟩ => ⟨S16384, .f32⟩
  | .hbm, ⟨11, _⟩ => ⟨S1x16384, .f32⟩
  | .hbm, ⟨12, _⟩ => ⟨S4096x1, .f32⟩
  | .hbm, ⟨13, _⟩ => ⟨S1x16384, .f32⟩
  | .hbm, ⟨14, _⟩ => ⟨S1x16384, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x64, .f32⟩
  | .hbm, ⟨20, _⟩ => ⟨S16384x64, .f32⟩
  | .hbm, ⟨21, _⟩ => ⟨S16384x66, .f32⟩
  | .hbm, ⟨22, _⟩ => ⟨S16384x66, .bf16⟩
  | .hbm, ⟨23, _⟩ => ⟨S4096x64, .f32⟩
  | .hbm, ⟨24, _⟩ => ⟨S4096x16384, .f32⟩
  | .local _ .vmem, ⟨0, _⟩ => ⟨S128x512, .bf16⟩
  | .local _ .vmem, ⟨1, _⟩ => ⟨S128x512, .bf16⟩
  | .local _ .vmem, ⟨2, _⟩ => ⟨S128x1, .f32⟩
  | .local _ .vmem, ⟨3, _⟩ => ⟨S128x1, .f32⟩
  | .local _ .vmem, ⟨4, _⟩ => ⟨S512x16384, .bf16⟩
  | .local _ .vmem, ⟨5, _⟩ => ⟨S1x16384, .f32⟩
  | .local _ .vmem, ⟨6, _⟩ => ⟨S1x16384, .f32⟩
  | .local _ .vmem, ⟨7, _⟩ => ⟨S1x16384, .f32⟩
  | .local _ .vmem, ⟨8, _⟩ => ⟨S16384x66, .bf16⟩
  | .local _ .vmem, ⟨9, _⟩ => ⟨S128x64, .f32⟩
  | .local _ .vmem, ⟨10, _⟩ => ⟨S128x64, .f32⟩
  | .local _ .vmem, ⟨11, _⟩ => ⟨S128x16384, .f32⟩
  | .local _ .vmem, ⟨12, _⟩ => ⟨S128x16384, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x16384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16384x66 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x16384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  slices_S513x16384_S512x16384_0_0 : S513x16384.Slices ![0, 0] S512x16384
  slices_S513x16384_S1x16384_512_0 : S513x16384.Slices ![512, 0] S1x16384
  shapeCasts_S1x16384_S16384 : S1x16384.ShapeCasts S16384
  shapeCasts_S16384_S1x16384 : S16384.ShapeCasts S1x16384
  shapeCasts_S4096_S4096x1 : S4096.ShapeCasts S4096x1
  bcast_S_S16384x1 : S_.BroadcastsInDim S16384x1 (![] : Fin 0 → Fin S16384x1.rank)
  shapeCasts_S1x16384_S16384x1 : S1x16384.ShapeCasts S16384x1
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  concatenates_S16384x1_S16384x1_S16384x64_S16384x66_d1 : Shape.Concatenates [S16384x1, S16384x1, S16384x64] S16384x66 1
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512x16384_S512x16384_0_0 : ∀ a, (![0, 0] : Fin 2 → Nat) a + S512x16384.size a ≤ S512x16384.size a
  h_S512x16384 : 0 < S512x16384.numel
  shapeCasts_S512x16384_S512x16384 : S512x16384.ShapeCasts S512x16384
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x16384_S1x16384_0_0 : ∀ a, (![0, 0] : Fin 2 → Nat) a + S1x16384.size a ≤ S1x16384.size a
  h_S1x16384 : 0 < S1x16384.numel
  shapeCasts_S1x16384_S1x16384 : S1x16384.ShapeCasts S1x16384
  broadcasts_S128x1_S128x16384 : S128x1.Broadcasts S128x16384
  broadcasts_S1x16384_S128x16384 : S1x16384.Broadcasts S128x16384
  inb_S16384x66_S16384x66_0_0 : ∀ a, (![0, 0] : Fin 2 → Nat) a + S16384x66.size a ≤ S16384x66.size a
  h_S16384x66 : 0 < S16384x66.numel
  shapeCasts_S16384x66_S16384x66 : S16384x66.ShapeCasts S16384x66
  slices_S128x66_o0_0_S128x1 : S128x66.Slices ![0, 0] S128x1
  slices_S128x66_o0_1_S128x1 : S128x66.Slices ![0, 1] S128x1
  inb_S128x16384_S128x16384_0_0 : ∀ a, (![0, 0] : Fin 2 → Nat) a + S128x16384.size a ≤ S128x16384.size a
  h_S128x16384 : 0 < S128x16384.numel
  slices_S128x66_o0_2_S128x64 : S128x66.Slices ![0, 2] S128x64
  broadcasts_S128x1_S128x64 : S128x1.Broadcasts S128x64
  inb_S128x64_S128x64_0_0 : ∀ a, (![0, 0] : Fin 2 → Nat) a + S128x64.size a ≤ S128x64.size a
  h_S128x64 : 0 < S128x64.numel
  dot_S128x512_S512x16384_S128x16384_1_0_0_1_n_n_wf : DotDims.WF S128x512 S512x16384 S128x16384 [1] [0] [0] [1] [] []
  dot_S128x16384_S16384x66_S128x66_1_0_0_1_n_n_wf : DotDims.WF S128x16384 S16384x66 S128x66 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S4096x512.size a
  hwx0_0 : ∀ i : grid0.Coords, EltTy.bits .bf16 = 32 ∨ (Rect.block (s := S4096x512) S128x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S4096x1.size a
  hwx0_1 : ∀ i : grid0.Coords, EltTy.bits .f32 = 32 ∨ (Rect.block (s := S4096x1) S128x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x16384.size a ≤ S512x16384.size a
  hwx0_2 : ∀ i : grid0.Coords, EltTy.bits .bf16 = 32 ∨ (Rect.block (s := S512x16384) S512x16384.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16384.size a ≤ S1x16384.size a
  hwx0_3 : ∀ i : grid0.Coords, EltTy.bits .f32 = 32 ∨ (Rect.block (s := S1x16384) S1x16384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16384.size a ≤ S1x16384.size a
  hwx0_4 : ∀ i : grid0.Coords, EltTy.bits .f32 = 32 ∨ (Rect.block (s := S1x16384) S1x16384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16384.size a ≤ S1x16384.size a
  hwx0_5 : ∀ i : grid0.Coords, EltTy.bits .f32 = 32 ∨ (Rect.block (s := S1x16384) S1x16384.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16384x66.size a ≤ S16384x66.size a
  hwx0_6 : ∀ i : grid0.Coords, EltTy.bits .bf16 = 32 ∨ (Rect.block (s := S16384x66) S16384x66.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S4096x64.size a
  hwx0_7 : ∀ i : grid0.Coords, EltTy.bits .f32 = 32 ∨ (Rect.block (s := S4096x64) S128x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x16384.size a ≤ S4096x16384.size a
  hwx0_8 : ∀ i : grid0.Coords, EltTy.bits .f32 = 32 ∨ (Rect.block (s := S4096x16384) S128x16384.size (cc0_transform_8 i) (hinb0_8 i)).WholeWords (EltTy.packing .f32)

variable [Facts₀]

def dot_S128x512_S512x16384_S128x16384_1_0_0_1_n_n : DotDims S128x512 S512x16384 S128x16384 where
  lhsContracting := [1]
  rhsContracting := [0]
  lhsNonContracting := [0]
  rhsNonContracting := [1]
  lhsBatch := []
  rhsBatch := []
  wf := dot_S128x512_S512x16384_S128x16384_1_0_0_1_n_n_wf
def dot_S128x16384_S16384x66_S128x66_1_0_0_1_n_n : DotDims S128x16384 S16384x66 S128x66 where
  lhsContracting := [1]
  rhsContracting := [0]
  lhsNonContracting := [0]
  rhsNonContracting := [1]
  lhsBatch := []
  rhsBatch := []
  wf := dot_S128x16384_S16384x66_S128x66_1_0_0_1_n_n_wf

abbrev win0_0 : Pipeline.Window sig grid0 :=
  Pipeline.Window.ofSpec (Memref.whole main_v0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x16384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x16384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x16384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x16384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S16384x66.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16_0) S128x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v16_1) S128x16384.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x512 : Shape := ⟨2, ![4096, 512]⟩
abbrev S4096 : Shape := ⟨1, ![4096]⟩
abbrev S513x16384 : Shape := ⟨2, ![513, 16384]⟩
abbrev S16384 : Shape := ⟨1, ![16384]⟩
abbrev S16384x64 : Shape := ⟨2, ![16384, 64]⟩
abbrev S4096x1 : Shape := ⟨2, ![4096, 1]⟩
abbrev S4096x513 : Shape := ⟨2, ![4096, 513]⟩
abbrev S4096x16384 : Shape := ⟨2, ![4096, 16384]⟩
abbrev S1x16384 : Shape := ⟨2, ![1, 16384]⟩
abbrev S_ : Shape := ⟨0, ![]⟩
abbrev S4096x64 : Shape := ⟨2, ![4096, 64]⟩

abbrev nBuf : Space → Nat
  | .hbm => 38
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096, .f32⟩
  | .hbm, ⟨2, _⟩ => ⟨S513x16384, .f32⟩
  | .hbm, ⟨3, _⟩ => ⟨S16384, .f32⟩
  | .hbm, ⟨4, _⟩ => ⟨S16384x64, .f32⟩
  | .hbm, ⟨5, _⟩ => ⟨S16384, .f32⟩
  | .hbm, ⟨6, _⟩ => ⟨S4096x1, .f32⟩
  | .hbm, ⟨7, _⟩ => ⟨S4096x513, .f32⟩
  | .hbm, ⟨8, _⟩ => ⟨S4096x16384, .f32⟩
  | .hbm, ⟨9, _⟩ => ⟨S1x16384, .f32⟩
  | .hbm, ⟨10, _⟩ => ⟨S4096x16384, .f32⟩
  | .hbm, ⟨11, _⟩ => ⟨S4096x16384, .f32⟩
  | .hbm, ⟨12, _⟩ => ⟨S_, .f32⟩
  | .hbm, ⟨13, _⟩ => ⟨S4096, .f32⟩
  | .hbm, ⟨14, _⟩ => ⟨S_, .f32⟩
  | .hbm, ⟨15, _⟩ => ⟨S4096, .f32⟩
  | .hbm, ⟨16, _⟩ => ⟨S4096, .f32⟩
  | .hbm, ⟨17, _⟩ => ⟨S4096x1, .f32⟩
  | .hbm, ⟨18, _⟩ => ⟨S4096x16384, .f32⟩
  | .hbm, ⟨19, _⟩ => ⟨S4096x16384, .f32⟩
  | .hbm, ⟨20, _⟩ => ⟨S4096x16384, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S4096x16384, .f32⟩
  | .hbm, ⟨25, _⟩ => ⟨S4096x16384, .f32⟩
  | .hbm, ⟨26, _⟩ => ⟨S1x16384, .f32⟩
  | .hbm, ⟨27, _⟩ => ⟨S4096x16384, .f32⟩
  | .hbm, ⟨28, _⟩ => ⟨S4096x16384, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x16384, .f32⟩
  | .hbm, ⟨36, _⟩ => ⟨S4096x16384, .f32⟩
  | .hbm, ⟨37, _⟩ => ⟨S4096x64, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  concatenates_S4096x512_S4096x1_S4096x513_d1 : Shape.Concatenates [S4096x512, S4096x1] S4096x513 1
  bcast_S16384_S1x16384_1 : S16384.BroadcastsInDim S1x16384 (![1] : Fin 1 → Fin S1x16384.rank)
  bcast_S1x16384_S4096x16384_0_1 : S1x16384.BroadcastsInDim S4096x16384 (![0, 1] : Fin 2 → Fin S4096x16384.rank)
  reducesTo_S4096x16384_S4096_d1 : S4096x16384.ReducesTo [1] S4096
  h_S_ : 0 < S_.numel
  bcast_S_S4096 : S_.BroadcastsInDim S4096 (![] : Fin 0 → Fin S4096.rank)
  bcast_S4096x1_S4096x16384_0_1 : S4096x1.BroadcastsInDim S4096x16384 (![0, 1] : Fin 2 → Fin S4096x16384.rank)
  bcast_S_S4096x1 : S_.BroadcastsInDim S4096x1 (![] : Fin 0 → Fin S4096x1.rank)
  dot_S4096x513_S513x16384_S4096x16384_1_0_0_1_n_n_wf : DotDims.WF S4096x513 S513x16384 S4096x16384 [1] [0] [0] [1] [] []
  dot_S4096x16384_S16384x64_S4096x64_1_0_0_1_n_n_wf : DotDims.WF S4096x16384 S16384x64 S4096x64 [1] [0] [0] [1] [] []

variable [Facts₀]

def dot_S4096x513_S513x16384_S4096x16384_1_0_0_1_n_n : DotDims S4096x513 S513x16384 S4096x16384 where
  lhsContracting := [1]
  rhsContracting := [0]
  lhsNonContracting := [0]
  rhsNonContracting := [1]
  lhsBatch := []
  rhsBatch := []
  wf := dot_S4096x513_S513x16384_S4096x16384_1_0_0_1_n_n_wf
def dot_S4096x16384_S16384x64_S4096x64_1_0_0_1_n_n : DotDims S4096x16384 S16384x64 S4096x64 where
  lhsContracting := [1]
  rhsContracting := [0]
  lhsNonContracting := [0]
  rhsNonContracting := [1]
  lhsBatch := []
  rhsBatch := []
  wf := dot_S4096x16384_S16384x64_S4096x64_1_0_0_1_n_n_wf

class Facts : Prop extends Facts₀ where

variable [Facts]
-- ==== Proof.BitsFrameDefs.lean ====
/-
  The frame of `Cert.Kernel`, first half: the DEFINITIONS, at any float model `F`.

  @main is seventeen host operations followed by one pipelined region (a grid of 32 points, nine windows:
  0–6 inputs, 7 and 8 outputs) and nothing after it. The kernel body loads each of its nine staging buffers
  whole, computes, and stores the whole block of window 8 and the whole block of window 7. So what the body
  leaves in an output buffer is a closed function of the seven input blocks at the point, and what it finds
  in an input buffer is that window's block at the point. This module names those things:

  * `V`      — a core's buffers when the region is entered: the launch memory after the host operations;
  * `hmain`  — @main is that host prefix followed by the region;
  * `V_main_argK` — no host operation writes an argument array, so `V` has each as launched;
  * `iblk`   — window `w`'s block at point `t`, read off its array at `V`;
  * `out0_7`, `out0_8` — the contents the body's one store leaves in each output buffer;
  * `dats`   — the proof data of the pipeline: arrays at `V`, inputs left at their blocks, outputs at `out0_W`.

  The run itself (the body's triple, the body obligation, the frame theorem) is the second half.
-/
import proofs.«165449_g58497454572246_cont_9to1c4b_647_8_alg».proof.Proof.Gen.Kernel.Launch
import proofs.«165449_g58497454572246_cont_9to1c4b_647_8_alg».proof.Proof.Gen.Kernel.Skeleton
import proofs.«165449_g58497454572246_cont_9to1c4b_647_8_alg».proof.Proof.Gen.Kernel.Points
import Idealize.ShloMosaic.Lib.Pipeline.FrameBody
import Idealize.ShloMosaic.Lib.Ring
import Idealize.ShloMosaic.Lib.Tactic

-- membership in a rectangle with an axis of 16384 coordinates: the structural check recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main up to the region -/

/-- Core `c`'s TensorCore buffers when the region is entered: the launch memory `m` after the seventeen host
    operations `hostOps0`, folded in order. Kept folded everywhere; only `V_main_argK` looks inside. -/
abbrev V (c : Dev nD) (b : Ref sig .tc) : Buf (Elt F) ((c : Thread nD τ).loc b) := StableHlo.after hostOps0 (fun b => m (c, b)) b

/-- No host operation allocates: each only reads and writes buffers of the signature. -/
theorem hostOps0_fresh : (hostOps0 : List (HloOp τ sig (Elt F))).Forall fun op => op.fresh = ∅ := by
  simp only [List.Forall]; repeat' constructor

/-- @main up to the region, at any variants `𝒱₀`: the host operations run over the unscoped buffers and take the
    launch memory `m` to `V m`, then the region is entered. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- None of the host operations before the region writes `main_arg0` (each writes one value of its own, none an
    argument array): the region finds the array as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- None of the host operations before the region writes `main_arg1` (each writes one value of its own, none an
    argument array): the region finds the array as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- None of the host operations before the region writes `main_arg2` (each writes one value of its own, none an
    argument array): the region finds the array as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- None of the host operations before the region writes `main_arg3` (each writes one value of its own, none an
    argument array): the region finds the array as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- None of the host operations before the region writes `main_arg4` (each writes one value of its own, none an
    argument array): the region finds the array as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- None of the host operations before the region writes `main_arg5` (each writes one value of its own, none an
    argument array): the region finds the array as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses

Every load and both stores of the body go through the rectangle that is the whole staging buffer of the window:
offset zero, the buffer's own extents. One rectangle per window, `r0_W` for window `W`. -/

abbrev r0_0 : Rect S128x512 := Rect.unit (s := S128x512) ![0, 0] S128x512.size inb_S128x512_S128x512_0_0
abbrev r0_1 : Rect S128x1 := Rect.unit (s := S128x1) ![0, 0] S128x1.size inb_S128x1_S128x1_0_0
abbrev r0_2 : Rect S512x16384 := Rect.unit (s := S512x16384) ![0, 0] S512x16384.size inb_S512x16384_S512x16384_0_0
abbrev r0_3 : Rect S1x16384 := Rect.unit (s := S1x16384) ![0, 0] S1x16384.size inb_S1x16384_S1x16384_0_0
abbrev r0_4 : Rect S1x16384 := Rect.unit (s := S1x16384) ![0, 0] S1x16384.size inb_S1x16384_S1x16384_0_0
abbrev r0_5 : Rect S1x16384 := Rect.unit (s := S1x16384) ![0, 0] S1x16384.size inb_S1x16384_S1x16384_0_0
abbrev r0_6 : Rect S16384x66 := Rect.unit (s := S16384x66) ![0, 0] S16384x66.size inb_S16384x66_S16384x66_0_0
abbrev r0_7 : Rect S128x64 := Rect.unit (s := S128x64) ![0, 0] S128x64.size inb_S128x64_S128x64_0_0
abbrev r0_8 : Rect S128x16384 := Rect.unit (s := S128x16384) ![0, 0] S128x16384.size inb_S128x16384_S128x16384_0_0

/-! ## What the body leaves in each output window's buffer -/

/-- Window 8's staging buffer after the body, as a function of the seven input blocks `xW` (window `W`'s): its one
    store, whose payload is the product `k0_pay5` of the loads of windows 0, 2, 1, 3, 4, 6, 5 in that order (the
    order in which the body loads them). -/
def out0_8 (x0 : Vec F S128x512 .bf16) (x1 : Vec F S128x1 .f32) (x2 : Vec F S512x16384 .bf16) (x3 x4 x5 : Vec F S1x16384 .f32)
    (x6 : Vec F S16384x66 .bf16) : Vec F S128x16384 .f32 :=
  View.canon [⟨r0_8, k0_pay5 (View.ld x0 r0_0) (View.ld x2 r0_2) (View.ld x1 r0_1) (View.ld x3 r0_3) (View.ld x4 r0_4) (View.ld x6 r0_6) (View.ld x5 r0_5)⟩]

/-- Window 7's staging buffer after the body, as a function of the six input blocks it depends on (window 5's is
    not among them): its one store, whose payload `k0_pay1` multiplies the two values `k0_pay6`, `k0_pay7` the
    first part of the body hands on, each over the loads of windows 0, 2, 1, 3, 4, 6 in that order. -/
def out0_7 (x0 : Vec F S128x512 .bf16) (x1 : Vec F S128x1 .f32) (x2 : Vec F S512x16384 .bf16) (x3 x4 : Vec F S1x16384 .f32)
    (x6 : Vec F S16384x66 .bf16) : Vec F S128x64 .f32 :=
  View.canon [⟨r0_7, k0_pay1
    (k0_pay6 (View.ld x0 r0_0) (View.ld x2 r0_2) (View.ld x1 r0_1) (View.ld x3 r0_3) (View.ld x4 r0_4) (View.ld x6 r0_6))
    (k0_pay7 (View.ld x0 r0_0) (View.ld x2 r0_2) (View.ld x1 r0_1) (View.ld x3 r0_3) (View.ld x4 r0_4) (View.ld x6 r0_6))⟩]

/-- The one store into window 7's buffer is of the whole buffer, so it covers it (checked by evaluation). -/
theorem cover0_7 (p0 : Vec F S128x64 .f32) (y : S128x64.Idx) :
    ∃ pc ∈ ([⟨r0_7, p0⟩] : List (View.Piece (Elt F) S128x64 .f32)), y ∈ pc.1.set :=
  View.cover_of_tiled [⟨r0_7, p0⟩] S128x64.size (by rfl) y

/-- The one store into window 8's buffer is of the whole buffer, so it covers it (checked by evaluation). -/
theorem cover0_8 (p0 : Vec F S128x16384 .f32) (y : S128x16384.Idx) :
    ∃ pc ∈ ([⟨r0_8, p0⟩] : List (View.Piece (Elt F) S128x16384 .f32)), y ∈ pc.1.set :=
  View.cover_of_tiled [⟨r0_8, p0⟩] S128x16384.size (by rfl) y

/-! ## The pipeline's proof data -/

/-- The proof data of the one pipeline on core `c`: the arrays as the region finds them (`V`); after the body at
    point `t` each input's buffer at its block, window 7's at `out0_7` and window 8's at `out0_8` of the input
    blocks; the invariant that of a body touching nothing but its staging buffers (`Pipeline.ΦA`: the scoped rest
    and the generator register, untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 6 t)
    | ⟨8, _⟩ => out0_8 (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the region-entry contents: the definition projected, so that `V` (a fold over
    seventeen operations) is never unfolded to see it. -/
theorem A_eq (c : Dev nD) (w : Fin cfg0.W) : (dats m 0 c).A w = V m c (Pipeline.arrRef spec0 w) := by
  dsimp only [dats]

/-! What the body leaves, window by window: the proof data's `match` reduced at each literal window. -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t
    = out0_7 (iblk m c 0 t) (iblk m c 1 t) (iblk m c 2 t) (iblk m c 3 t) (iblk m c 4 t) (iblk m c 6 t) := by dsimp only [dats]
theorem after0_8 (c : Dev nD) (t : Fin cfg0.N) : (dats m 0 c).after 8 t
    = out0_8 (iblk m c 0 t) (iblk m c 1 t) (iblk m c 2 t) (iblk m c 3 t) (iblk m c 4 t) (iblk m c 5 t) (iblk m c 6 t) := by dsimp only [dats]

end Cert.Kernel.Hand

end
-- ==== Proof.BitsFrameRun.lean ====
/-
  The frame of `Cert.Kernel`, second half: the RUN, at any float model `F`.

  Over the definitions of the first half (`V`, `iblk`, `out0_7`, `out0_8`, `dats`):

  * `before0_W` — each input window's current staging buffer holds the window's block at every point, whether the
    pipeline fetched it there (windows 0, 1: at every point) or not (windows 2–6: at the first point only, the block
    index never moving after it);
  * `sound_kernel` — the kernel body on whole staging buffers, the inputs' at contents `xW`, returns the inputs' as
    they were and the outputs' at `out0_7`, `out0_8` of the inputs';
  * `body_obligation` — hence the pipeline library's obligation on the body at every grid point;
  * `run_main` — every weakly fair execution of @main terminates without a fault, in a state where each array of
    the pipeline holds what the library computes from `dats` and every other unscoped buffer what it held when
    the region was entered;
  * `frame` — in particular the six argument arrays, which no window stages and no host operation writes, end as
    they were launched.
-/
import proofs.«165449_g58497454572246_cont_9to1c4b_647_8_alg».proof.Proof.BitsFrameDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body finds in each input window's buffer -/

/-- Input window 0's current staging buffer holds the window's block at every point, fetched there or not, for ANY
    proof data whose array is `V`'s (`hA`) and whose body leaves the block in place (`hafter`): where the pipeline
    does not fetch, the block index has not moved since the point before, and the buffer still holds that point's
    block, which is this one's. The window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds the window's block at every point, fetched there or not, for ANY
    proof data whose array is `V`'s (`hA`) and whose body leaves the block in place (`hafter`): where the pipeline
    does not fetch, the block index has not moved since the point before, and the buffer still holds that point's
    block, which is this one's. The window is uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds the window's block at every point, fetched there or not, for ANY
    proof data whose array is `V`'s (`hA`) and whose body leaves the block in place (`hafter`): where the pipeline
    does not fetch, the block index has not moved since the point before, and the buffer still holds that point's
    block, which is this one's. The window is uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds the window's block at every point, fetched there or not, for ANY
    proof data whose array is `V`'s (`hA`) and whose body leaves the block in place (`hafter`): where the pipeline
    does not fetch, the block index has not moved since the point before, and the buffer still holds that point's
    block, which is this one's. The window is uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds the window's block at every point, fetched there or not, for ANY
    proof data whose array is `V`'s (`hA`) and whose body leaves the block in place (`hafter`): where the pipeline
    does not fetch, the block index has not moved since the point before, and the buffer still holds that point's
    block, which is this one's. The window is uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds the window's block at every point, fetched there or not, for ANY
    proof data whose array is `V`'s (`hA`) and whose body leaves the block in place (`hafter`): where the pipeline
    does not fetch, the block index has not moved since the point before, and the buffer still holds that point's
    block, which is this one's. The window is uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds the window's block at every point, fetched there or not, for ANY
    proof data whose array is `V`'s (`hA`) and whose body leaves the block in place (`hafter`): where the pipeline
    does not fetch, the block index has not moved since the point before, and the buffer still holds that point's
    block, which is this one's. The window is uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Each input's current staging buffer holds its block at every point, for the proof data `dats`. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The frame claim's post from the frame run's -/

/-- THE FRAME from a frame run: for any proof data, a run to the library's `FramePost` read at the six argument
    arrays is the frame claim's post. None of the six is the array of a window (the windows stage values the host
    operations computed, and the two results), so each is among the unscoped buffers that bypass the region and
    ends at `V`, which is the launch contents (`V_main_argK`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The body's triple -/

set_option maxHeartbeats 1000000 in
/-- The kernel body on whole staging buffers — the seven inputs' at read contents `x0 … x6`, the two outputs' at
    anything — runs to the continuation holding the inputs' as they were, window 7's at `out0_7` and window 8's at
    `out0_8` of the inputs'. The body is nine whole-buffer loads (the two of the output buffers read values it never
    uses) and two whole-buffer stores; the printed function and its printed first part are their skeletons, which
    are executed symbolically; what a whole-buffer store leaves reads as the canon of that one piece. -/
theorem sound_kernel (c : Dev nD) (E : Set ℕ) (i : grid0.Coords) (arg1 : Memref sig .tc .vmem S128x512 .bf16) (harg1 : arg1.IsWhole) (arg2 : Memref sig .tc .vmem S128x1 .f32) (harg2 : arg2.IsWhole) (arg3 : Memref sig .tc .vmem S512x16384 .bf16) (harg3 : arg3.IsWhole) (arg4 : Memref sig .tc .vmem S1x16384 .f32) (harg4 : arg4.IsWhole) (arg5 : Memref sig .tc .vmem S1x16384 .f32) (harg5 : arg5.IsWhole) (arg6 : Memref sig .tc .vmem S1x16384 .f32) (harg6 : arg6.IsWhole) (arg7 : Memref sig .tc .vmem S16384x66 .bf16) (harg7 : arg7.IsWhole) (arg8 : Memref sig .tc .vmem S128x64 .f32) (harg8 : arg8.IsWhole) (arg9 : Memref sig .tc .vmem S128x16384 .f32) (harg9 : arg9.IsWhole)
    (x0 : Vec F S128x512 .bf16) (x1 : Vec F S128x1 .f32) (x2 : Vec F S512x16384 .bf16) (x3 x4 x5 : Vec F S1x16384 .f32)
    (x6 : Vec F S16384x66 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out0_7 x0 x1 x2 x3 x4 x6)
            ∗ owns (c : Thread nD τ) arg9 fullShare (out0_8 x0 x1 x2 x3 x4 x5 x6)) -∗ K ⟨⟩))
      ⊢ wp frame (wpE (defs₀ (F := F)) Variants.none c none) E (cc0__read_kernel i arg1 harg1 arg2 harg2 arg3 harg3 arg4 harg4 arg5 harg5 arg6 harg6 arg7 harg7 arg8 harg8 arg9 harg9) K := by
  simp only [cc0__read_kernel_eq_skeleton]; unfold cc0__read_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover0_7 _)
  iexists _; isplitr
  swap; · iexact H8
  ipureintro
  try dsimp only
  exact View.read_writes_eq_canon _ _ _ (cover0_8 _)

/-! ## The body obligation, at a generic point -/

/-- What the body is called with at point `t` (the library's body obligation's precondition, the nine windows one by
    one): the invariant, what the core owes, and each window's current staging buffer at what it holds before the
    body. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What the body returns: the same, each buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1000000 in
/-- The body at any point: the inputs' buffers hold their blocks (`before0_W`), so `sound_kernel` applies at those
    blocks; the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the library theorem's implicit arguments are found by unifying its conclusion with this one, which takes unfolding
-- plain definitions in a metavariable's type
set_option backward.isDefEq.respectTransparency.types false in
/-- At the compiled mesh, for any values, from any memory with zero counters: every weakly fair execution of @main on
    the TensorCores terminates, and every final state has every array of the pipeline at what the library computes
    from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- info: 'Cert.Kernel.Hand.run_main' depends on axioms: [propext, Classical.choice, Quot.sound] -/
#guard_msgs in #print axioms run_main

/-- THE FRAME, at any `F`: every weakly fair execution of @main terminates without a fault and leaves the six
    argument arrays as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Hand

end
-- ==== Proof.IdealFrameDefs.lean ====
/-
  The frame of `Cert.KernelIdeal`, first half: the DEFINITIONS, at any float model `F`.

  @main is seventeen host operations followed by one pipelined region (a grid of 32 points, nine windows:
  0–6 inputs, 7 and 8 outputs) and nothing after it. The kernel body loads each of its nine staging buffers
  whole, computes, and stores the whole block of window 8 and the whole block of window 7. So what the body
  leaves in an output buffer is a closed function of the seven input blocks at the point, and what it finds
  in an input buffer is that window's block at the point. This module names those things:

  * `V`      — a core's buffers when the region is entered: the launch memory after the host operations;
  * `hmain`  — @main is that host prefix followed by the region;
  * `V_main_argK` — no host operation writes an argument array, so `V` has each as launched;
  * `iblk`   — window `w`'s block at point `t`, read off its array at `V`;
  * `out0_7`, `out0_8` — the contents the body's one store leaves in each output buffer;
  * `dats`   — the proof data of the pipeline: arrays at `V`, inputs left at their blocks, outputs at `out0_W`.

  The run itself (the body's triple, the body obligation, the frame theorem) is the second half.
-/
import proofs.«165449_g58497454572246_cont_9to1c4b_647_8_alg».proof.Proof.Gen.KernelIdeal.Launch
import proofs.«165449_g58497454572246_cont_9to1c4b_647_8_alg».proof.Proof.Gen.KernelIdeal.Skeleton
import proofs.«165449_g58497454572246_cont_9to1c4b_647_8_alg».proof.Proof.Gen.KernelIdeal.Points
import Idealize.ShloMosaic.Lib.Pipeline.FrameBody
import Idealize.ShloMosaic.Lib.Ring
import Idealize.ShloMosaic.Lib.Tactic

-- membership in a rectangle with an axis of 16384 coordinates: the structural check recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main up to the region -/

/-- Core `c`'s TensorCore buffers when the region is entered: the launch memory `m` after the seventeen host
    operations `hostOps0`, folded in order. Kept folded everywhere; only `V_main_argK` looks inside. -/
abbrev V (c : Dev nD) (b : Ref sig .tc) : Buf (Elt F) ((c : Thread nD τ).loc b) := StableHlo.after hostOps0 (fun b => m (c, b)) b

/-- No host operation allocates: each only reads and writes buffers of the signature. -/
theorem hostOps0_fresh : (hostOps0 : List (HloOp τ sig (Elt F))).Forall fun op => op.fresh = ∅ := by
  simp only [List.Forall]; repeat' constructor

/-- @main up to the region, at any variants `𝒱₀`: the host operations run over the unscoped buffers and take the
    launch memory `m` to `V m`, then the region is entered. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- None of the host operations before the region writes `main_arg0` (each writes one value of its own, none an
    argument array): the region finds the array as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- None of the host operations before the region writes `main_arg1` (each writes one value of its own, none an
    argument array): the region finds the array as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- None of the host operations before the region writes `main_arg2` (each writes one value of its own, none an
    argument array): the region finds the array as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- None of the host operations before the region writes `main_arg3` (each writes one value of its own, none an
    argument array): the region finds the array as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- None of the host operations before the region writes `main_arg4` (each writes one value of its own, none an
    argument array): the region finds the array as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- None of the host operations before the region writes `main_arg5` (each writes one value of its own, none an
    argument array): the region finds the array as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses

Every load and both stores of the body go through the rectangle that is the whole staging buffer of the window:
offset zero, the buffer's own extents. One rectangle per window, `r0_W` for window `W`. -/

abbrev r0_0 : Rect S128x512 := Rect.unit (s := S128x512) ![0, 0] S128x512.size inb_S128x512_S128x512_0_0
abbrev r0_1 : Rect S128x1 := Rect.unit (s := S128x1) ![0, 0] S128x1.size inb_S128x1_S128x1_0_0
abbrev r0_2 : Rect S512x16384 := Rect.unit (s := S512x16384) ![0, 0] S512x16384.size inb_S512x16384_S512x16384_0_0
abbrev r0_3 : Rect S1x16384 := Rect.unit (s := S1x16384) ![0, 0] S1x16384.size inb_S1x16384_S1x16384_0_0
abbrev r0_4 : Rect S1x16384 := Rect.unit (s := S1x16384) ![0, 0] S1x16384.size inb_S1x16384_S1x16384_0_0
abbrev r0_5 : Rect S1x16384 := Rect.unit (s := S1x16384) ![0, 0] S1x16384.size inb_S1x16384_S1x16384_0_0
abbrev r0_6 : Rect S16384x66 := Rect.unit (s := S16384x66) ![0, 0] S16384x66.size inb_S16384x66_S16384x66_0_0
abbrev r0_7 : Rect S128x64 := Rect.unit (s := S128x64) ![0, 0] S128x64.size inb_S128x64_S128x64_0_0
abbrev r0_8 : Rect S128x16384 := Rect.unit (s := S128x16384) ![0, 0] S128x16384.size inb_S128x16384_S128x16384_0_0

/-! ## What the body leaves in each output window's buffer -/

/-- Window 8's staging buffer after the body, as a function of the seven input blocks `xW` (window `W`'s): its one
    store, whose payload is the product `k0_pay5` of the loads of windows 0, 2, 1, 3, 4, 6, 5 in that order (the
    order in which the body loads them). -/
def out0_8 (x0 : Vec F S128x512 .bf16) (x1 : Vec F S128x1 .f32) (x2 : Vec F S512x16384 .bf16) (x3 x4 x5 : Vec F S1x16384 .f32)
    (x6 : Vec F S16384x66 .bf16) : Vec F S128x16384 .f32 :=
  View.canon [⟨r0_8, k0_pay5 (View.ld x0 r0_0) (View.ld x2 r0_2) (View.ld x1 r0_1) (View.ld x3 r0_3) (View.ld x4 r0_4) (View.ld x6 r0_6) (View.ld x5 r0_5)⟩]

/-- Window 7's staging buffer after the body, as a function of the six input blocks it depends on (window 5's is
    not among them): its one store, whose payload `k0_pay1` multiplies the two values `k0_pay6`, `k0_pay7` the
    first part of the body hands on, each over the loads of windows 0, 2, 1, 3, 4, 6 in that order. -/
def out0_7 (x0 : Vec F S128x512 .bf16) (x1 : Vec F S128x1 .f32) (x2 : Vec F S512x16384 .bf16) (x3 x4 : Vec F S1x16384 .f32)
    (x6 : Vec F S16384x66 .bf16) : Vec F S128x64 .f32 :=
  View.canon [⟨r0_7, k0_pay1
    (k0_pay6 (View.ld x0 r0_0) (View.ld x2 r0_2) (View.ld x1 r0_1) (View.ld x3 r0_3) (View.ld x4 r0_4) (View.ld x6 r0_6))
    (k0_pay7 (View.ld x0 r0_0) (View.ld x2 r0_2) (View.ld x1 r0_1) (View.ld x3 r0_3) (View.ld x4 r0_4) (View.ld x6 r0_6))⟩]

/-- The one store into window 7's buffer is of the whole buffer, so it covers it (checked by evaluation). -/
theorem cover0_7 (p0 : Vec F S128x64 .f32) (y : S128x64.Idx) :
    ∃ pc ∈ ([⟨r0_7, p0⟩] : List (View.Piece (Elt F) S128x64 .f32)), y ∈ pc.1.set :=
  View.cover_of_tiled [⟨r0_7, p0⟩] S128x64.size (by rfl) y

/-- The one store into window 8's buffer is of the whole buffer, so it covers it (checked by evaluation). -/
theorem cover0_8 (p0 : Vec F S128x16384 .f32) (y : S128x16384.Idx) :
    ∃ pc ∈ ([⟨r0_8, p0⟩] : List (View.Piece (Elt F) S128x16384 .f32)), y ∈ pc.1.set :=
  View.cover_of_tiled [⟨r0_8, p0⟩] S128x16384.size (by rfl) y

/-! ## The pipeline's proof data -/

/-- The proof data of the one pipeline on core `c`: the arrays as the region finds them (`V`); after the body at
    point `t` each input's buffer at its block, window 7's at `out0_7` and window 8's at `out0_8` of the input
    blocks; the invariant that of a body touching nothing but its staging buffers (`Pipeline.ΦA`: the scoped rest
    and the generator register, untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 6 t)
    | ⟨8, _⟩ => out0_8 (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the region-entry contents: the definition projected, so that `V` (a fold over
    seventeen operations) is never unfolded to see it. -/
theorem A_eq (c : Dev nD) (w : Fin cfg0.W) : (dats m 0 c).A w = V m c (Pipeline.arrRef spec0 w) := by
  dsimp only [dats]

/-! What the body leaves, window by window: the proof data's `match` reduced at each literal window. -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t
    = out0_7 (iblk m c 0 t) (iblk m c 1 t) (iblk m c 2 t) (iblk m c 3 t) (iblk m c 4 t) (iblk m c 6 t) := by dsimp only [dats]
theorem after0_8 (c : Dev nD) (t : Fin cfg0.N) : (dats m 0 c).after 8 t
    = out0_8 (iblk m c 0 t) (iblk m c 1 t) (iblk m c 2 t) (iblk m c 3 t) (iblk m c 4 t) (iblk m c 5 t) (iblk m c 6 t) := by dsimp only [dats]

end Cert.KernelIdeal.Hand

end
-- ==== Proof.IdealFrameRun.lean ====
/-
  The frame of `Cert.KernelIdeal`, second half: the RUN, at any float model `F`.

  Over the definitions of the first half (`V`, `iblk`, `out0_7`, `out0_8`, `dats`):

  * `before0_W` — each input window's current staging buffer holds the window's block at every point, whether the
    pipeline fetched it there (windows 0, 1: at every point) or not (windows 2–6: at the first point only, the block
    index never moving after it);
  * `sound_kernel` — the kernel body on whole staging buffers, the inputs' at contents `xW`, returns the inputs' as
    they were and the outputs' at `out0_7`, `out0_8` of the inputs';
  * `body_obligation` — hence the pipeline library's obligation on the body at every grid point;
  * `run_main` — every weakly fair execution of @main terminates without a fault, in a state where each array of
    the pipeline holds what the library computes from `dats` and every other unscoped buffer what it held when
    the region was entered;
  * `frame` — in particular the six argument arrays, which no window stages and no host operation writes, end as
    they were launched.
-/
import proofs.«165449_g58497454572246_cont_9to1c4b_647_8_alg».proof.Proof.IdealFrameDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body finds in each input window's buffer -/

/-- Input window 0's current staging buffer holds the window's block at every point, fetched there or not, for ANY
    proof data whose array is `V`'s (`hA`) and whose body leaves the block in place (`hafter`): where the pipeline
    does not fetch, the block index has not moved since the point before, and the buffer still holds that point's
    block, which is this one's. The window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds the window's block at every point, fetched there or not, for ANY
    proof data whose array is `V`'s (`hA`) and whose body leaves the block in place (`hafter`): where the pipeline
    does not fetch, the block index has not moved since the point before, and the buffer still holds that point's
    block, which is this one's. The window is uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds the window's block at every point, fetched there or not, for ANY
    proof data whose array is `V`'s (`hA`) and whose body leaves the block in place (`hafter`): where the pipeline
    does not fetch, the block index has not moved since the point before, and the buffer still holds that point's
    block, which is this one's. The window is uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds the window's block at every point, fetched there or not, for ANY
    proof data whose array is `V`'s (`hA`) and whose body leaves the block in place (`hafter`): where the pipeline
    does not fetch, the block index has not moved since the point before, and the buffer still holds that point's
    block, which is this one's. The window is uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds the window's block at every point, fetched there or not, for ANY
    proof data whose array is `V`'s (`hA`) and whose body leaves the block in place (`hafter`): where the pipeline
    does not fetch, the block index has not moved since the point before, and the buffer still holds that point's
    block, which is this one's. The window is uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds the window's block at every point, fetched there or not, for ANY
    proof data whose array is `V`'s (`hA`) and whose body leaves the block in place (`hafter`): where the pipeline
    does not fetch, the block index has not moved since the point before, and the buffer still holds that point's
    block, which is this one's. The window is uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds the window's block at every point, fetched there or not, for ANY
    proof data whose array is `V`'s (`hA`) and whose body leaves the block in place (`hafter`): where the pipeline
    does not fetch, the block index has not moved since the point before, and the buffer still holds that point's
    block, which is this one's. The window is uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Each input's current staging buffer holds its block at every point, for the proof data `dats`. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The frame claim's post from the frame run's -/

/-- THE FRAME from a frame run: for any proof data, a run to the library's `FramePost` read at the six argument
    arrays is the frame claim's post. None of the six is the array of a window (the windows stage values the host
    operations computed, and the two results), so each is among the unscoped buffers that bypass the region and
    ends at `V`, which is the launch contents (`V_main_argK`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The body's triple -/

set_option maxHeartbeats 1000000 in
/-- The kernel body on whole staging buffers — the seven inputs' at read contents `x0 … x6`, the two outputs' at
    anything — runs to the continuation holding the inputs' as they were, window 7's at `out0_7` and window 8's at
    `out0_8` of the inputs'. The body is nine whole-buffer loads (the two of the output buffers read values it never
    uses) and two whole-buffer stores; the printed function and its printed first part are their skeletons, which
    are executed symbolically; what a whole-buffer store leaves reads as the canon of that one piece. -/
theorem sound_kernel (c : Dev nD) (E : Set ℕ) (i : grid0.Coords) (arg1 : Memref sig .tc .vmem S128x512 .bf16) (harg1 : arg1.IsWhole) (arg2 : Memref sig .tc .vmem S128x1 .f32) (harg2 : arg2.IsWhole) (arg3 : Memref sig .tc .vmem S512x16384 .bf16) (harg3 : arg3.IsWhole) (arg4 : Memref sig .tc .vmem S1x16384 .f32) (harg4 : arg4.IsWhole) (arg5 : Memref sig .tc .vmem S1x16384 .f32) (harg5 : arg5.IsWhole) (arg6 : Memref sig .tc .vmem S1x16384 .f32) (harg6 : arg6.IsWhole) (arg7 : Memref sig .tc .vmem S16384x66 .bf16) (harg7 : arg7.IsWhole) (arg8 : Memref sig .tc .vmem S128x64 .f32) (harg8 : arg8.IsWhole) (arg9 : Memref sig .tc .vmem S128x16384 .f32) (harg9 : arg9.IsWhole)
    (x0 : Vec F S128x512 .bf16) (x1 : Vec F S128x1 .f32) (x2 : Vec F S512x16384 .bf16) (x3 x4 x5 : Vec F S1x16384 .f32)
    (x6 : Vec F S16384x66 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out0_7 x0 x1 x2 x3 x4 x6)
            ∗ owns (c : Thread nD τ) arg9 fullShare (out0_8 x0 x1 x2 x3 x4 x5 x6)) -∗ K ⟨⟩))
      ⊢ wp frame (wpE (defs₀ (F := F)) Variants.none c none) E (cc0__read_kernel i arg1 harg1 arg2 harg2 arg3 harg3 arg4 harg4 arg5 harg5 arg6 harg6 arg7 harg7 arg8 harg8 arg9 harg9) K := by
  simp only [cc0__read_kernel_eq_skeleton]; unfold cc0__read_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover0_7 _)
  iexists _; isplitr
  swap; · iexact H8
  ipureintro
  try dsimp only
  exact View.read_writes_eq_canon _ _ _ (cover0_8 _)

/-! ## The body obligation, at a generic point -/

/-- What the body is called with at point `t` (the library's body obligation's precondition, the nine windows one by
    one): the invariant, what the core owes, and each window's current staging buffer at what it holds before the
    body. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What the body returns: the same, each buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1000000 in
/-- The body at any point: the inputs' buffers hold their blocks (`before0_W`), so `sound_kernel` applies at those
    blocks; the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the library theorem's implicit arguments are found by unifying its conclusion with this one, which takes unfolding
-- plain definitions in a metavariable's type
set_option backward.isDefEq.respectTransparency.types false in
/-- At the compiled mesh, for any values, from any memory with zero counters: every weakly fair execution of @main on
    the TensorCores terminates, and every final state has every array of the pipeline at what the library computes
    from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- info: 'Cert.KernelIdeal.Hand.run_main' depends on axioms: [propext, Classical.choice, Quot.sound] -/
#guard_msgs in #print axioms run_main

/-- THE FRAME, at any `F`: every weakly fair execution of @main terminates without a fault and leaves the six
    argument arrays as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Hand

end
-- ==== Proof.Spec.lean ====
/-
  What the two programs compute, written once, with no program in sight.

  A batch row has one logit per memory slot, `l s = (Σ_h q h · W h s) + il · W_last s + b s`.  Both programs turn the row
  of logits into the same pair of results, in two arrangements:

  * the fused arrangement works with the unnormalised exponentials `e s = exp (l s)`: with `Z = Σ e s` and
    `P = Σ e s · imp s` it forms one scale `1 / (P + c · Z)`, returns the weights `(e s · imp s) · scale` and the read
    `(Σ_s e s · (mem s d · imp s)) · scale`;
  * the two-pass arrangement normalises first, `w s = exp (l s − M) / Σ exp (l s' − M)` for a shift `M`, then renormalises
    the importance-weighted weights, `(w s · imp s) / ((Σ w s · imp s) + c)`, and reads `Σ_s weight s · mem s d`.

  The row-level definitions are over arbitrary finite index types, so that the law joining the two arrangements is a
  statement about sums of reals and nothing else; the whole-array functions at the end fix the extents.
-/
import Idealize.ShloMosaic.PureOps.Ideal
import Idealize.ShloMosaic.Lib.ValueIdx

noncomputable section

open scoped BigOperators

namespace Cert.PriorityRead

open Idealize.ShloMosaic Idealize.ShloMosaic.ValueIdx

/-! ## One row, fused arrangement -/

section Row

variable {ι δ : Type} [Fintype ι]

/-- The fused divisor `P + c · Z`. -/
def kDen (c : EReal) (e imp : ι → EReal) : EReal := (∑ s, e s * imp s) + c * (∑ s, e s)

/-- Its reciprocal, the one scale of the row. -/
def kScale (c : EReal) (e imp : ι → EReal) : EReal := Ideal.div 1 (kDen c e imp)

/-- The renormalised importance weight of slot `s`. -/
def kWeight (c : EReal) (e imp : ι → EReal) (s : ι) : EReal := (e s * imp s) * kScale c e imp

/-- The read content at feature `d`. -/
def kRead (c : EReal) (e imp : ι → EReal) (mem : ι → δ → EReal) (d : δ) : EReal :=
  (∑ s, e s * (mem s d * imp s)) * kScale c e imp

/-! ## One row, two-pass arrangement (shift `M`) -/

/-- The softmax weight of slot `s`, computed after subtracting `M`. -/
def rSoft (l : ι → EReal) (M : EReal) (s : ι) : EReal :=
  Ideal.div (Ideal.exp (l s - M)) (∑ s', Ideal.exp (l s' - M))

/-- The renormalisation's divisor. -/
def rDen (c : EReal) (l imp : ι → EReal) (M : EReal) : EReal := (∑ s, rSoft l M s * imp s) + c

/-- The renormalised importance weight of slot `s`. -/
def rWeight (c : EReal) (l imp : ι → EReal) (M : EReal) (s : ι) : EReal :=
  Ideal.div (rSoft l M s * imp s) (rDen c l imp M)

/-- The read content at feature `d`. -/
def rRead (c : EReal) (l imp : ι → EReal) (M : EReal) (mem : ι → δ → EReal) (d : δ) : EReal :=
  ∑ s, rWeight c l imp M s * mem s d

end Row

/-! ## The arrays -/

abbrev SQuery : Shape := ⟨2, ![4096, 512]⟩
abbrev SLevel : Shape := ⟨1, ![4096]⟩
abbrev SWeights : Shape := ⟨2, ![513, 16384]⟩
abbrev SSlots : Shape := ⟨1, ![16384]⟩
abbrev SMemory : Shape := ⟨2, ![16384, 64]⟩
abbrev SOutW : Shape := ⟨2, ![4096, 16384]⟩
abbrev SOutR : Shape := ⟨2, ![4096, 64]⟩

/-- Every entry of the array is a real number (neither infinity). -/
def AllReal {S : Shape} (x : S.Idx → EReal) : Prop := ∀ i, ∃ r : ℝ, x i = (r : EReal)

/-- The renormalisation's additive constant: the f32 word both programs carry (the nearest float to 10⁻⁶). -/
def epsW : EReal := Ideal.ofBits .f32 0x358637BD#32

/-- The logit of batch row `b` at slot `s`: the query row against the first 512 rows of the weight matrix, plus the
    integration level times the last row, plus the bias. -/
def logit (q : SQuery.Idx → EReal) (il : SLevel.Idx → EReal) (W : SWeights.Idx → EReal) (bb : SSlots.Idx → EReal)
    (b : Fin 4096) (s : Fin 16384) : EReal :=
  ((∑ h : Fin 512, q (ix2 b h) * W (ix2 h.castSucc s)) + il (ix1 b) * W (ix2 (Fin.last 512) s)) + bb (ix1 s)

/-- The importance-weighted read weights, `[4096, 16384]`. -/
def weightAt (q : SQuery.Idx → EReal) (il : SLevel.Idx → EReal) (W : SWeights.Idx → EReal) (bb imp : SSlots.Idx → EReal)
    (b : Fin 4096) (s : Fin 16384) : EReal :=
  kWeight epsW (fun s' => Ideal.exp (logit q il W bb b s')) (fun s' => imp (ix1 s')) s

/-- The read content, `[4096, 64]`. -/
def readAt (q : SQuery.Idx → EReal) (il : SLevel.Idx → EReal) (W : SWeights.Idx → EReal) (bb : SSlots.Idx → EReal)
    (mem : SMemory.Idx → EReal) (imp : SSlots.Idx → EReal) (b : Fin 4096) (d : Fin 64) : EReal :=
  kRead epsW (fun s' => Ideal.exp (logit q il W bb b s')) (fun s' => imp (ix1 s')) (fun s' d' => mem (ix2 s' d')) d

/-- The same as functions of an array index. -/
def weightOut (q : SQuery.Idx → EReal) (il : SLevel.Idx → EReal) (W : SWeights.Idx → EReal) (bb imp : SSlots.Idx → EReal) :
    SOutW.Idx → EReal := fun i => weightAt q il W bb imp (i 0) (i 1)

def readOut (q : SQuery.Idx → EReal) (il : SLevel.Idx → EReal) (W : SWeights.Idx → EReal) (bb : SSlots.Idx → EReal)
    (mem : SMemory.Idx → EReal) (imp : SSlots.Idx → EReal) : SOutR.Idx → EReal :=
  fun i => readAt q il W bb mem imp (i 0) (i 1)

end Cert.PriorityRead

end
-- ==== Proof.LibKeepdims.lean ====
/-
  Layout operations of small shapes read at an index, for row-wise reductions kept as a column and for a vector used as a
  one-row matrix; the float word of minus infinity; the host's exponential and logarithm at an index.

  A row-wise reduction of an `a × b` array (a maximum, a sum) is a vector of `a` entries; to combine it with the array again it
  is cast or broadcast to a column `a × 1` and the column is broadcast along the rows to `a × b`. Read at (p, c), each of these
  is the vector's entry `p`. A vector of `n` entries reshaped to a one-row matrix `1 × n` is the same as the vector broadcast
  along axis 1 of that shape. None of this depends on a program.
-/
import Idealize.ShloMosaic.Lib.Pipeline.Value
import Idealize.ShloMosaic.Lib.ValueIdx
import Idealize.ShloMosaic.PureOps.Ideal.Laws

noncomputable section

namespace Cert.Gcn

open Idealize.ShloMosaic Idealize.ShloMosaic.ValueIdx

/-! ## A column of row values: the keepdims cast and its broadcast along the rows -/

section Columns
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array broadcast in dimension 0 to `[a, 1]` reads, at `(i, u)`, the operand at `i`. -/
theorem broadcastInDim_a_a1_apply {a : ℕ} (hbc : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] hbc x (ix2 i u) = x (ix1 i) := by
  refine broadcastInDim_apply ![0] hbc x (ix2 i u) (ix1 i) fun ax => ?_
  match ax with
  | ⟨0, _⟩ =>
    show i.val = if a = 1 then 0 else i.val
    split
    · have := i.isLt; omega
    · rfl

/-- An `[a, 1]` array broadcast in dimensions (0, 1) to `[a, b]` reads, at `(p, c)`, the operand's one column at row `p`. -/
theorem broadcastInDim_a1_ab_apply {a b : ℕ} (hbc : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] hbc v (ix2 p c) = v (ix2 p (0 : Fin 1)) := by
  refine broadcastInDim_apply ![0, 1] hbc v (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## A vector as a one-row matrix -/

/-- A vector of `n` entries reshaped to one row is the vector broadcast along axis 1 of a one-row matrix. -/
theorem reshape_row_eq_broadcast {n : Nat} (x : (⟨1, ![n]⟩ : Shape).Idx → EReal)
    (h : (⟨1, ![n]⟩ : Shape).ShapeCasts ⟨2, ![1, n]⟩) (h' : (⟨1, ![n]⟩ : Shape).BroadcastsInDim ⟨2, ![1, n]⟩ ![1]) :
    shapeCast ⟨2, ![1, n]⟩ x h = broadcastInDim ⟨2, ![1, n]⟩ ![1] h' x := by
  funext i
  obtain ⟨a, b, rfl⟩ : ∃ (a : Fin 1) (b : Fin n), i = ix2 a b := ⟨i 0, i 1, eq_ix2 i⟩
  have e1 := shapeCast_apply x h (ix2 a b) (ix1 b) (by
    rw [Shape.rowMajor_val_two, Shape.rowMajor_val_one]
    have := a.isLt
    show b.val = a.val * n + b.val
    have : a.val = 0 := by omega
    rw [this]; omega)
  have e2 := broadcastInDim_apply ![1] h' x (ix2 a b) (ix1 b) (by
    intro d
    match d with
    | ⟨0, _⟩ =>
      show b.val = if n = 1 then 0 else b.val
      split
      · have := b.isLt; omega
      · rfl)
  exact e1.trans e2.symm

/-! ## Values on the extended reals -/

/-- The word of `−∞` at f32 is the extended reals' bottom. -/
theorem ofBits_negInf_f32 : Ideal.ofBits .f32 0xFF800000#32 = ⊥ := by simp [Ideal.ofBits, Ideal.ieee]

/-- The host's exponential of an array at an index is the exponential of the entry. -/
theorem hostExp_apply {s : Shape} (v : FVec Ideal s .f32) (i : s.Idx) : Host.exp v i = Ideal.exp (v i) := rfl

/-- The host's logarithm of an array at an index is the logarithm of the entry. -/
theorem hostLog_apply {s : Shape} (v : FVec Ideal s .f32) (i : s.Idx) : Host.log v i = Ideal.log (v i) := rfl

end Cert.Gcn

end
-- ==== Proof.KernelArrays.lean ====
/-
  What the region finds in the seven arrays its input windows stage, in terms of the six argument arrays.

  Before the region the program prepares, on the host: the query unchanged (a change of float format), the first 512
  rows of the weight matrix and its last row as a [1, 16384] array, the integration levels as a column, the bias and the
  importances as rows, and the auxiliary matrix [16384, 66] whose row `s` is `(1, imp s, mem s 0 · imp s, …,
  mem s 63 · imp s)`.  Each lemma below reads one of those arrays at an index as an entry of an argument array.
-/
import proofs.«165449_g58497454572246_cont_9to1c4b_647_8_alg».proof.Proof.IdealFrameDefs
import proofs.«165449_g58497454572246_cont_9to1c4b_647_8_alg».proof.Proof.Spec
import proofs.«165449_g58497454572246_cont_9to1c4b_647_8_alg».proof.Proof.LibKeepdims
import Idealize.ShloMosaic.Lib.StableHlo.Run
import Idealize.ShloMosaic.Lib.ValueIdx
import Idealize.ShloMosaic.Lib.ValueLayout
import Idealize.ShloMosaic.Lib.Pipeline.Value

noncomputable section

namespace Cert.PriorityRead

open Idealize.ShloMosaic Idealize.ShloMosaic.TcCoe Idealize.ShloMosaic.ValueIdx Idealize.SL.Sem Idealize.ShloMosaic.StableHlo
open Cert.KernelIdeal Cert.KernelIdeal.Gen

section
variable {nD : Nat} {τ : Topo} {sig : RefSig} {Val : EltTy → Type}

/-- A host operation of three literal operands leaves, at its result, its function of the three operands' contents,
    each read at its own buffer. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl
end

/-- Rewrites "the contents of a buffer after a list of host operations" to the operations' functions of the launch
    contents, one operation at a time, the three-operand operation included. -/
macro "after_results3" : tactic =>
  `(tactic| (simp only [after_cons, after_nil]
             repeat (first
               | rw [nullary_result] | rw [unary_result] | rw [binary_result]
               | rw [reshape_result] | rw [nary3_result]
               | (rw [nullary_result_ne]; rotate_left; decide)
               | (rw [unary_result_ne]; rotate_left; decide)
               | (rw [binary_result_ne]; rotate_left; decide)
               | (rw [reshape_result_ne]; rotate_left; decide)
               | (rw [nary_result_ne]; rotate_left; decide))))

variable (m : (ℓ : Loc nD τ sig) → Buf (Elt Ideal) ℓ) (c : Dev nD)

/-- The six argument arrays as functions of an index. -/
abbrev argQ : SQuery.Idx → EReal := m ((c : Thread nD τ).loc main_arg0)
abbrev argL : SLevel.Idx → EReal := m ((c : Thread nD τ).loc main_arg1)
abbrev argW : SWeights.Idx → EReal := m ((c : Thread nD τ).loc main_arg2)
abbrev argB : SSlots.Idx → EReal := m ((c : Thread nD τ).loc main_arg3)
abbrev argM : SMemory.Idx → EReal := m ((c : Thread nD τ).loc main_arg4)
abbrev argP : SSlots.Idx → EReal := m ((c : Thread nD τ).loc main_arg5)

/-! ## The arrays as composed terms -/

theorem V_v0 : @Eq (S4096x512.Idx → EReal) (Hand.V m c main_v0)
    (truncf (F := Ideal) .bf16 (argQ m c) bitsLt_bf16_f32) := by
  dsimp only [Hand.V, hostOps0]
  after_results3 <;> rfl

theorem V_v6 : @Eq (S4096x1.Idx → EReal) (Hand.V m c main_v6)
    (shapeCast S4096x1 (argL m c) shapeCasts_S4096_S4096x1) := by
  dsimp only [Hand.V, hostOps0]
  after_results3 <;> rfl

theorem V_v2 : @Eq (S512x16384.Idx → EReal) (Hand.V m c main_v2)
    (truncf (F := Ideal) .bf16 (extractStridedSlice S512x16384 ![0, 0] (argW m c) slices_S513x16384_S512x16384_0_0) bitsLt_bf16_f32) := by
  dsimp only [Hand.V, hostOps0]
  after_results3 <;> rfl

theorem V_v5 : @Eq (S1x16384.Idx → EReal) (Hand.V m c main_v5)
    (shapeCast S1x16384 (shapeCast S16384 (extractStridedSlice S1x16384 ![512, 0] (argW m c) slices_S513x16384_S1x16384_512_0)
      shapeCasts_S1x16384_S16384) shapeCasts_S16384_S1x16384) := by
  dsimp only [Hand.V, hostOps0]
  after_results3 <;> rfl

theorem V_v7 : @Eq (S1x16384.Idx → EReal) (Hand.V m c main_v7)
    (shapeCast S1x16384 (argB m c) shapeCasts_S16384_S1x16384) := by
  dsimp only [Hand.V, hostOps0]
  after_results3 <;> rfl

theorem V_v8 : @Eq (S1x16384.Idx → EReal) (Hand.V m c main_v8)
    (shapeCast S1x16384 (argP m c) shapeCasts_S16384_S1x16384) := by
  dsimp only [Hand.V, hostOps0]
  after_results3 <;> rfl

/-- The three pieces of the auxiliary matrix: a column of ones, the importances as a column, and the memory with each
    row scaled by its importance. -/
def auxOne : S16384x1.Idx → EReal :=
  broadcastInDim (α := EReal) S16384x1 ![] bcast_S_S16384x1 (constant (F := Ideal) S_ .f32 0x3F800000#32)
def auxImp : S16384x1.Idx → EReal :=
  shapeCast (α := EReal) S16384x1 (shapeCast (α := EReal) S1x16384 (argP m c) shapeCasts_S16384_S1x16384) shapeCasts_S1x16384_S16384x1
def auxMem : S16384x64.Idx → EReal :=
  mulf (F := Ideal) (s := S16384x64) (φ := .f32) (argM m c)
    (broadcastInDim (α := EReal) S16384x64 ![0, 1] bcast_S16384x1_S16384x64_0_1
      (broadcastInDim (α := EReal) S16384x1 ![0] bcast_S16384_S16384x1_0 (argP m c)))

/-- The pieces in order. -/
abbrev auxPieces : List ((s : Shape) × (s.Idx → EReal)) :=
  [⟨S16384x1, auxOne⟩, ⟨S16384x1, auxImp m c⟩, ⟨S16384x64, auxMem m c⟩]

theorem V_v15 : @Eq (S16384x66.Idx → EReal) (Hand.V m c main_v15)
    (truncf (F := Ideal) .bf16 (concatenate S16384x66 1 (auxPieces m c)
      concatenates_S16384x1_S16384x1_S16384x64_S16384x66_d1) bitsLt_bf16_f32) := by
  dsimp only [Hand.V, hostOps0]
  after_results3 <;> rfl

/-! ## The arrays at an index -/

theorem entry_q (b : Fin 4096) (h : Fin 512) :
    (Hand.V m c main_v0 : S4096x512.Idx → EReal) (ix2 b h) = argQ m c (ix2 b h) :=
  congrFun (V_v0 m c) (ix2 b h)

theorem entry_l (b : Fin 4096) :
    (Hand.V m c main_v6 : S4096x1.Idx → EReal) (ix2 b (0 : Fin 1)) = argL m c (ix1 b) :=
  (congrFun (V_v6 m c) (ix2 b (0 : Fin 1))).trans (Cert.Gcn.shapeCast_a_a1_apply _ _ b 0)

theorem entry_w (h : Fin 512) (s : Fin 16384) :
    (Hand.V m c main_v2 : S512x16384.Idx → EReal) (ix2 h s) = argW m c (ix2 h.castSucc s) :=
  (congrFun (V_v2 m c) (ix2 h s)).trans
    (extractStridedSlice_apply _ _ slices_S513x16384_S512x16384_0_0 (ix2 h s) (ix2 h.castSucc s)
      (fun a => by match a with | ⟨0, _⟩ => exact (Nat.zero_add _).symm | ⟨1, _⟩ => exact (Nat.zero_add _).symm))

theorem entry_i (s : Fin 16384) :
    (Hand.V m c main_v5 : S1x16384.Idx → EReal) (ix2 (0 : Fin 1) s) = argW m c (ix2 (Fin.last 512) s) :=
  (congrFun (V_v5 m c) (ix2 (0 : Fin 1) s)).trans
    ((shapeCast_a_1a_apply _ _ 0 s).trans ((shapeCast_1a_a_apply _ _ s).trans
      (extractStridedSlice_apply _ _ slices_S513x16384_S1x16384_512_0 (ix2 (0 : Fin 1) s) (ix2 (Fin.last 512) s)
        (fun a => by match a with | ⟨0, _⟩ => rfl | ⟨1, _⟩ => exact (Nat.zero_add _).symm))))

theorem entry_b (s : Fin 16384) :
    (Hand.V m c main_v7 : S1x16384.Idx → EReal) (ix2 (0 : Fin 1) s) = argB m c (ix1 s) :=
  (congrFun (V_v7 m c) (ix2 (0 : Fin 1) s)).trans (shapeCast_a_1a_apply _ _ 0 s)

theorem entry_p (s : Fin 16384) :
    (Hand.V m c main_v8 : S1x16384.Idx → EReal) (ix2 (0 : Fin 1) s) = argP m c (ix1 s) :=
  (congrFun (V_v8 m c) (ix2 (0 : Fin 1) s)).trans (shapeCast_a_1a_apply _ _ 0 s)

theorem auxOne_apply (s : Fin 16384) : auxOne (ix2 s (0 : Fin 1)) = Ideal.ofBits .f32 0x3F800000#32 := by
  unfold auxOne
  exact (broadcastInDim_apply _ bcast_S_S16384x1 _ (ix2 s (0 : Fin 1)) ix0 (fun a => a.elim0)).trans rfl

theorem auxImp_apply (s : Fin 16384) : auxImp m c (ix2 s (0 : Fin 1)) = argP m c (ix1 s) := by
  unfold auxImp
  refine (shapeCast_apply _ shapeCasts_S1x16384_S16384x1 (ix2 s (0 : Fin 1)) (ix2 (0 : Fin 1) s) ?_).trans
    (shapeCast_a_1a_apply _ _ 0 s)
  rw [Shape.rowMajor_val_two, Shape.rowMajor_val_two]
  show 0 * 16384 + s.val = s.val * 1 + 0
  omega

theorem auxMem_apply (s : Fin 16384) (d : Fin 64) : auxMem m c (ix2 s d) = argM m c (ix2 s d) * argP m c (ix1 s) := by
  unfold auxMem
  rw [mulf_apply, Cert.Gcn.broadcastInDim_a1_ab_apply, Cert.Gcn.broadcastInDim_a_a1_apply]

/-- Column 0 of the auxiliary matrix is the unit word. -/
theorem entry_a0 (s : Fin 16384) :
    (Hand.V m c main_v15 : S16384x66.Idx → EReal) (ix2 s (0 : Fin 66)) = Ideal.ofBits .f32 0x3F800000#32 :=
  (congrFun (V_v15 m c) (ix2 s (0 : Fin 66))).trans
    ((concatenate_apply_piece (t := S16384x66) (1 : Fin 2) (auxPieces m c) concatenates_S16384x1_S16384x1_S16384x64_S16384x66_d1 (ix2 s (0 : Fin 66))
      0 (by show 0 < 3; omega) S16384x1 auxOne rfl rfl 0 rfl (ix2 s (0 : Fin 1))
      (fun b hb => by match b with | ⟨0, _⟩ => rfl | ⟨1, _⟩ => exact absurd rfl hb) rfl).trans (auxOne_apply s))

/-- Column 1 is the importance of the row's slot. -/
theorem entry_a1 (s : Fin 16384) :
    (Hand.V m c main_v15 : S16384x66.Idx → EReal) (ix2 s (1 : Fin 66)) = argP m c (ix1 s) :=
  (congrFun (V_v15 m c) (ix2 s (1 : Fin 66))).trans
    ((concatenate_apply_piece (t := S16384x66) (1 : Fin 2) (auxPieces m c) concatenates_S16384x1_S16384x1_S16384x64_S16384x66_d1 (ix2 s (1 : Fin 66))
      1 (by show 1 < 3; omega) S16384x1 (auxImp m c) rfl rfl 1 rfl (ix2 s (0 : Fin 1))
      (fun b hb => by match b with | ⟨0, _⟩ => rfl | ⟨1, _⟩ => exact absurd rfl hb) rfl).trans (auxImp_apply m c s))

/-- Column 2 + d is the memory's entry `(s, d)` times the slot's importance. -/
theorem entry_a2 (s : Fin 16384) (d : Fin 64) :
    (Hand.V m c main_v15 : S16384x66.Idx → EReal) (ix2 s (⟨2 + d.val, by omega⟩ : Fin 66))
      = argM m c (ix2 s d) * argP m c (ix1 s) :=
  (congrFun (V_v15 m c) (ix2 s (⟨2 + d.val, by omega⟩ : Fin 66))).trans
    ((concatenate_apply_piece (t := S16384x66) (1 : Fin 2) (auxPieces m c) concatenates_S16384x1_S16384x1_S16384x64_S16384x66_d1
      (ix2 s (⟨2 + d.val, by omega⟩ : Fin 66))
      2 (by show 2 < 3; omega) S16384x64 (auxMem m c) rfl rfl 2 rfl (ix2 s d)
      (fun b hb => by match b with | ⟨0, _⟩ => rfl | ⟨1, _⟩ => exact absurd rfl hb) rfl).trans (auxMem_apply m c s d))

end Cert.PriorityRead

end
-- ==== Proof.LibDense.lean ====
/-
  A dense layer and a three-layer perceptron, read one output at a time over the extended reals.

  A plain product of an M×K by a K×N array into a zero accumulator is, at row r and column c, the sum over k of
  lhs (r, k) · rhs (k, c) (plain_matmul_apply); a column [M,1] stretched along the second axis reads its row's one
  entry (broadcast_col_apply). So a dense layer on a tile of T columns — the product of the weights with the tile plus
  the stretched bias — reads, in column q, the weights applied to column q alone (dense_apply): a tile's width and
  position never enter. Three such layers with a maximum against a zero after the first two are, column by column, the
  scalar function mlpAt of that column (mlpTile_apply), whatever the width of the tile and whatever formats the arrays
  are held in (a change of format is the identity on the extended reals). mlpOut is the same function laid out batch
  major: row n of the result is mlpAt of row n of the input. No program is mentioned here.
-/
import Idealize.ShloMosaic.PureOps.Ideal.Laws
import Idealize.ShloMosaic.Lib.ValueIdx
import Idealize.ShloMosaic.Lib.Pipeline.Value

noncomputable section

open scoped BigOperators

namespace LibDense

open Idealize.ShloMosaic Idealize.ShloMosaic.ValueIdx

/-- A plain M×K by K×N product into the zero accumulator, at (r, c): the sum over k of lhs (r, k) · rhs (k, c). -/
theorem plain_matmul_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (c : Fin N) :
    matmul d prec lhs rhs (constant ⟨2, ![M, N]⟩ .f32 0x00000000#32) (ix2 r c)
      = ∑ k : Fin K, lhs (ix2 r k) * rhs (ix2 k c) := by
  subst hd
  refine (Ideal.matmul_constant_zero_apply (DotDims.plain M K N) prec lhs rhs (ix2 r c)).trans ?_
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun k _ => ?_
  have hl : (DotDims.plain M K N).lhsIdx (ix2 r c) ((contrEquiv1 (DotDims.plain M K N) K hr hs).symm k) = ix2 r k := by
    funext a
    apply Fin.ext
    match a with
    | ⟨0, _⟩ => rfl
    | ⟨1, _⟩ =>
      exact ((DotDims.plain M K N).lhsIdx_val_of_single (cl := (1 : Fin 2)) rfl _ _).trans
        (contrEquiv1_symm_val _ K hr hs k)
  have hrr : (DotDims.plain M K N).rhsIdx (ix2 r c) ((contrEquiv1 (DotDims.plain M K N) K hr hs).symm k) = ix2 k c := by
    funext a
    apply Fin.ext
    match a with
    | ⟨0, _⟩ =>
      exact ((DotDims.plain M K N).rhsIdx_val_of_single (cr := (0 : Fin 2)) rfl _ _).trans
        (contrEquiv1_symm_val _ K hr hs k)
    | ⟨1, _⟩ => rfl
  rw [hl, hrr]

/-- A column [M,1] stretched to [M,N] reads, at (r, c), the column's entry of row r. -/
theorem broadcast_col_apply {M N : ℕ} {α : Type} (v : (⟨2, ![M, 1]⟩ : Shape).Idx → α)
    (h : (⟨2, ![M, 1]⟩ : Shape).Broadcasts ⟨2, ![M, N]⟩) (r : Fin M) (c : Fin N) :
    broadcastTo ⟨2, ![M, N]⟩ v h (ix2 r c) = v (ix2 r (0 : Fin 1)) := by
  refine broadcastTo_apply v h (ix2 r c) (ix2 r (0 : Fin 1)) fun ax => ?_
  match ax with
  | ⟨0, _⟩ =>
    show r.val = if M = 1 then 0 else r.val
    split
    · have := r.isLt; omega
    · rfl
  | ⟨1, _⟩ => rfl

/-- One output of a dense layer: row r of the weights applied to the vector h, plus the bias of row r. -/
def denseAt {M K : ℕ} (w : (⟨2, ![M, K]⟩ : Shape).Idx → EReal) (b : (⟨2, ![M, 1]⟩ : Shape).Idx → EReal)
    (h : Fin K → EReal) (r : Fin M) : EReal :=
  (∑ k : Fin K, w (ix2 r k) * h k) + b (ix2 r (0 : Fin 1))

/-- A dense layer on a tile of T columns, read at (r, q): the layer's output r on column q of the tile. -/
theorem dense_apply {M K T : ℕ} {φ₁ φ₂ φ₃ : FTy} (d : DotDims ⟨2, ![M, K]⟩ ⟨2, ![K, T]⟩ ⟨2, ![M, T]⟩)
    (hd : d = DotDims.plain M K T) (hb : (⟨2, ![M, 1]⟩ : Shape).Broadcasts ⟨2, ![M, T]⟩)
    (w : FVec Ideal ⟨2, ![M, K]⟩ φ₁) (b : FVec Ideal ⟨2, ![M, 1]⟩ φ₃) (h : FVec Ideal ⟨2, ![K, T]⟩ φ₂)
    (r : Fin M) (q : Fin T) :
    matmul d none w h (constant ⟨2, ![M, T]⟩ .f32 0x00000000#32) (ix2 r q) + broadcastTo ⟨2, ![M, T]⟩ b hb (ix2 r q)
      = denseAt w b (fun k => h (ix2 k q)) r := by
  rw [plain_matmul_apply d hd, broadcast_col_apply]
  rfl

/-- The three-layer perceptron on one input vector x, output c: dense, maximum with zero, dense, maximum with zero, dense. -/
def mlpAt {D0 D1 D2 D3 : ℕ} (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal)
    (x : Fin D0 → EReal) (c : Fin D3) : EReal :=
  denseAt w3 b3 (fun k => max (denseAt w2 b2 (fun j => max (denseAt w1 b1 x j) 0) k) 0) c

/-- The perceptron on a feature-major tile of T columns as vector operations compute it: each layer a plain product into
    a zero accumulator plus the stretched bias, the first two followed by a maximum against a splat z. -/
def mlpTile {D0 D1 D2 D3 T : ℕ}
    (d1 : DotDims ⟨2, ![D1, D0]⟩ ⟨2, ![D0, T]⟩ ⟨2, ![D1, T]⟩) (d2 : DotDims ⟨2, ![D2, D1]⟩ ⟨2, ![D1, T]⟩ ⟨2, ![D2, T]⟩)
    (d3 : DotDims ⟨2, ![D3, D2]⟩ ⟨2, ![D2, T]⟩ ⟨2, ![D3, T]⟩)
    (hb1 : (⟨2, ![D1, 1]⟩ : Shape).Broadcasts ⟨2, ![D1, T]⟩) (hb2 : (⟨2, ![D2, 1]⟩ : Shape).Broadcasts ⟨2, ![D2, T]⟩)
    (hb3 : (⟨2, ![D3, 1]⟩ : Shape).Broadcasts ⟨2, ![D3, T]⟩) (z1 z2 : EReal)
    (x : (⟨2, ![D0, T]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) :
    (⟨2, ![D3, T]⟩ : Shape).Idx → EReal :=
  let h1 : FVec Ideal ⟨2, ![D1, T]⟩ .f32 :=
    maximumf (addf (matmul (φ₁ := .f32) (φ₂ := .f32) d1 none w1 x (constant ⟨2, ![D1, T]⟩ .f32 0x00000000#32)) (broadcastTo ⟨2, ![D1, T]⟩ b1 hb1))
      (broadcast ⟨2, ![D1, T]⟩ z1)
  let h2 : FVec Ideal ⟨2, ![D2, T]⟩ .f32 :=
    maximumf (addf (matmul (φ₁ := .f32) (φ₂ := .f32) d2 none w2 h1 (constant ⟨2, ![D2, T]⟩ .f32 0x00000000#32)) (broadcastTo ⟨2, ![D2, T]⟩ b2 hb2))
      (broadcast ⟨2, ![D2, T]⟩ z2)
  addf (φ := .f32) (matmul (φ₁ := .f32) (φ₂ := .f32) d3 none w3 h2 (constant ⟨2, ![D3, T]⟩ .f32 0x00000000#32)) (broadcastTo ⟨2, ![D3, T]⟩ b3 hb3)

/-- Column by column the tile computation is the scalar perceptron of that column: the tile's width never enters. -/
theorem mlpTile_apply {D0 D1 D2 D3 T : ℕ}
    (d1 : DotDims ⟨2, ![D1, D0]⟩ ⟨2, ![D0, T]⟩ ⟨2, ![D1, T]⟩) (d2 : DotDims ⟨2, ![D2, D1]⟩ ⟨2, ![D1, T]⟩ ⟨2, ![D2, T]⟩)
    (d3 : DotDims ⟨2, ![D3, D2]⟩ ⟨2, ![D2, T]⟩ ⟨2, ![D3, T]⟩)
    (hd1 : d1 = DotDims.plain D1 D0 T) (hd2 : d2 = DotDims.plain D2 D1 T) (hd3 : d3 = DotDims.plain D3 D2 T)
    (hb1 : (⟨2, ![D1, 1]⟩ : Shape).Broadcasts ⟨2, ![D1, T]⟩) (hb2 : (⟨2, ![D2, 1]⟩ : Shape).Broadcasts ⟨2, ![D2, T]⟩)
    (hb3 : (⟨2, ![D3, 1]⟩ : Shape).Broadcasts ⟨2, ![D3, T]⟩) (z1 z2 : EReal) (hz1 : z1 = 0) (hz2 : z2 = 0)
    (x : (⟨2, ![D0, T]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal)
    (c : Fin D3) (q : Fin T) :
    mlpTile d1 d2 d3 hb1 hb2 hb3 z1 z2 x w1 b1 w2 b2 w3 b3 (ix2 c q)
      = mlpAt w1 b1 w2 b2 w3 b3 (fun i => x (ix2 i q)) c := by
  subst hz1 hz2
  unfold mlpTile mlpAt
  rw [addf_apply]
  refine (dense_apply (φ₁ := .f32) (φ₂ := .f32) (φ₃ := .f32) d3 hd3 hb3 w3 b3 _ c q).trans ?_
  refine congrArg (fun f => denseAt w3 b3 f c) (funext fun k => ?_)
  rw [maximumf_apply, addf_apply, broadcast_apply]
  refine congrArg (fun v => max v 0) ?_
  refine (dense_apply (φ₁ := .f32) (φ₂ := .f32) (φ₃ := .f32) d2 hd2 hb2 w2 b2 _ k q).trans ?_
  refine congrArg (fun f => denseAt w2 b2 f k) (funext fun j => ?_)
  rw [maximumf_apply, addf_apply, broadcast_apply]
  refine congrArg (fun v => max v 0) ?_
  exact dense_apply (φ₁ := .f32) (φ₂ := .f32) (φ₃ := .f32) d1 hd1 hb1 w1 b1 x j q

/-- The perceptron batch major: row n of the result is the scalar perceptron of row n of the input. -/
def mlpOut {B D0 D1 D2 D3 : ℕ} (x : (⟨2, ![B, D0]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) :
    (⟨2, ![B, D3]⟩ : Shape).Idx → EReal :=
  fun i => mlpAt w1 b1 w2 b2 w3 b3 (fun k => x (ix2 (i 0 : Fin B) k)) (i 1 : Fin D3)

theorem mlpOut_apply {B D0 D1 D2 D3 : ℕ} (x : (⟨2, ![B, D0]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) (n : Fin B) (c : Fin D3) :
    mlpOut x w1 b1 w2 b2 w3 b3 (ix2 n c) = mlpAt w1 b1 w2 b2 w3 b3 (fun k => x (ix2 n k)) c := rfl

/-- The perceptron feature major: column n of the result is the scalar perceptron of column n of the input. -/
def mlpOutT {B D0 D1 D2 D3 : ℕ} (xT : (⟨2, ![D0, B]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) :
    (⟨2, ![D3, B]⟩ : Shape).Idx → EReal :=
  fun i => mlpAt w1 b1 w2 b2 w3 b3 (fun k => xT (ix2 k (i 1 : Fin B))) (i 0 : Fin D3)

theorem mlpOutT_apply {B D0 D1 D2 D3 : ℕ} (xT : (⟨2, ![D0, B]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) (c : Fin D3) (n : Fin B) :
    mlpOutT xT w1 b1 w2 b2 w3 b3 (ix2 c n) = mlpAt w1 b1 w2 b2 w3 b3 (fun k => xT (ix2 k n)) c := rfl

/-- The word of all zero bits denotes zero in the sixteen-bit format too. -/
theorem ofBits_zero_bf16 : Ideal.ofBits .bf16 0x0000#16 = 0 := by simp [Ideal.ofBits, Ideal.ieee]

end LibDense

end
-- ==== Proof.KernelTile.lean ====
/-
  One grid point's arithmetic, element by element.

  At a grid point the kernel holds a block of 128 batch rows: the query block `xq` [128, 512], the integration levels
  `xl` [128, 1], and, whole, the first 512 rows of the weight matrix `xw` [512, 16384], its last row `xi` [1, 16384], the
  bias `xb` [1, 16384], the importances `xp` [1, 16384] and the auxiliary matrix `xa` [16384, 66].  This module reads each
  value the body computes at one index, as plain arithmetic on extended reals: the exponentials `tileExp`, their product
  with the auxiliary matrix `tileRed` (a sum over the 16384 slots), the row's scale `tileScale`, and the two stored
  blocks.
-/
import proofs.«165449_g58497454572246_cont_9to1c4b_647_8_alg».proof.Proof.Gen.KernelIdeal.Skeleton
import proofs.«165449_g58497454572246_cont_9to1c4b_647_8_alg».proof.Proof.Spec
import proofs.«165449_g58497454572246_cont_9to1c4b_647_8_alg».proof.Proof.LibDense
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.PriorityRead

open Idealize.ShloMosaic Idealize.ShloMosaic.ValueIdx Cert.KernelIdeal Cert.KernelIdeal.Gen

/-- The unnormalised exponential of row `p` of the block at slot `s`. -/
def tileExp (xq : Vec Ideal S128x512 .bf16) (xw : Vec Ideal S512x16384 .bf16) (xl : Vec Ideal S128x1 .f32)
    (xi xb : Vec Ideal S1x16384 .f32) (p : Fin 128) (s : Fin 16384) : EReal :=
  Ideal.exp (((∑ h : Fin 512, xq (ix2 p h) * xw (ix2 h s)) + xl (ix2 p (0 : Fin 1)) * xi (ix2 (0 : Fin 1) s))
    + xb (ix2 (0 : Fin 1) s))

/-- Row `p` of the exponentials against column `j` of the auxiliary matrix. -/
def tileRed (xq : Vec Ideal S128x512 .bf16) (xw : Vec Ideal S512x16384 .bf16) (xl : Vec Ideal S128x1 .f32)
    (xi xb : Vec Ideal S1x16384 .f32) (xa : Vec Ideal S16384x66 .bf16) (p : Fin 128) (j : Fin 66) : EReal :=
  ∑ s : Fin 16384, tileExp xq xw xl xi xb p s * xa (ix2 s j)

theorem dot1_plain : dot_S128x512_S512x16384_S128x16384_1_0_0_1_n_n = DotDims.plain 128 512 16384 := rfl
theorem dot2_plain : dot_S128x16384_S16384x66_S128x66_1_0_0_1_n_n = DotDims.plain 128 16384 66 := rfl

/-- The exponentials the body forms, at `(p, s)`. -/
theorem pay2_apply (xq : Vec Ideal S128x512 .bf16) (xw : Vec Ideal S512x16384 .bf16) (xl : Vec Ideal S128x1 .f32)
    (xi xb : Vec Ideal S1x16384 .f32) (p : Fin 128) (s : Fin 16384) :
    k0_pay2 (F := Ideal) xq xw xl xi xb (ix2 p s) = tileExp xq xw xl xi xb p s := by
  unfold k0_pay2 tileExp
  simp only [exp, addf, mulf, Ideal.exp_def, Ideal.addf_def, Ideal.mulf_def]
  rw [LibDense.plain_matmul_apply _ dot1_plain, LibDense.broadcast_col_apply, broadcastTo_1b_ab_apply, broadcastTo_1b_ab_apply]
  simp only [shapeCast_self]

/-- The exponentials against the auxiliary matrix, at `(p, j)`: a sum over the slots. -/
theorem pay3_apply (xq : Vec Ideal S128x512 .bf16) (xw : Vec Ideal S512x16384 .bf16) (xl : Vec Ideal S128x1 .f32)
    (xi xb : Vec Ideal S1x16384 .f32) (xa : Vec Ideal S16384x66 .bf16) (p : Fin 128) (j : Fin 66) :
    k0_pay3 (F := Ideal) xq xw xl xi xb xa (ix2 p j) = tileRed xq xw xl xi xb xa p j := by
  unfold k0_pay3 tileRed
  rw [LibDense.plain_matmul_apply _ dot2_plain]
  refine Finset.sum_congr rfl fun s _ => ?_
  rw [truncf_apply, pay2_apply, shapeCast_self]

/-- The row's scale: the reciprocal of (column 1 of the reduction) + ε · (column 0 of the reduction). -/
def tileScale (xq : Vec Ideal S128x512 .bf16) (xw : Vec Ideal S512x16384 .bf16) (xl : Vec Ideal S128x1 .f32)
    (xi xb : Vec Ideal S1x16384 .f32) (xa : Vec Ideal S16384x66 .bf16) (p : Fin 128) : EReal :=
  Ideal.div (Ideal.ofBits .f32 0x3F800000#32)
    (tileRed xq xw xl xi xb xa p (1 : Fin 66) + epsW * tileRed xq xw xl xi xb xa p (0 : Fin 66))

/-- The scale the body forms, at row `p` of its one column. -/
theorem pay4_apply (xq : Vec Ideal S128x512 .bf16) (xw : Vec Ideal S512x16384 .bf16) (xl : Vec Ideal S128x1 .f32)
    (xi xb : Vec Ideal S1x16384 .f32) (xa : Vec Ideal S16384x66 .bf16) (p : Fin 128) :
    k0_pay4 (F := Ideal) xq xw xl xi xb xa (ix2 p (0 : Fin 1)) = tileScale xq xw xl xi xb xa p := by
  unfold k0_pay4 tileScale epsW
  simp only [divf, addf, mulf, broadcast, Ideal.divf_def, Ideal.addf_def, Ideal.mulf_def]
  rw [extractStridedSlice_apply _ _ slices_S128x66_o0_0_S128x1 (ix2 p (0 : Fin 1)) (ix2 p (0 : Fin 66))
        (fun a => by match a with | ⟨0, _⟩ => exact (Nat.zero_add _).symm | ⟨1, _⟩ => rfl),
    extractStridedSlice_apply _ _ slices_S128x66_o0_1_S128x1 (ix2 p (0 : Fin 1)) (ix2 p (1 : Fin 66))
        (fun a => by match a with | ⟨0, _⟩ => exact (Nat.zero_add _).symm | ⟨1, _⟩ => rfl),
    pay3_apply, pay3_apply]
  rfl

/-- The stored weights block at `(p, s)`. -/
theorem pay5_apply (xq : Vec Ideal S128x512 .bf16) (xw : Vec Ideal S512x16384 .bf16) (xl : Vec Ideal S128x1 .f32)
    (xi xb : Vec Ideal S1x16384 .f32) (xa : Vec Ideal S16384x66 .bf16) (xp : Vec Ideal S1x16384 .f32)
    (p : Fin 128) (s : Fin 16384) :
    k0_pay5 (F := Ideal) xq xw xl xi xb xa xp (ix2 p s)
      = (tileExp xq xw xl xi xb p s * xp (ix2 (0 : Fin 1) s)) * tileScale xq xw xl xi xb xa p := by
  unfold k0_pay5
  simp only [mulf, Ideal.mulf_def]
  rw [pay2_apply, broadcastTo_1b_ab_apply, LibDense.broadcast_col_apply, pay4_apply, shapeCast_self]

/-- The stored read block at `(p, d)`. -/
theorem pay1_apply (xq : Vec Ideal S128x512 .bf16) (xw : Vec Ideal S512x16384 .bf16) (xl : Vec Ideal S128x1 .f32)
    (xi xb : Vec Ideal S1x16384 .f32) (xa : Vec Ideal S16384x66 .bf16) (p : Fin 128) (d : Fin 64) :
    k0_pay1 (F := Ideal) (k0_pay6 xq xw xl xi xb xa) (k0_pay7 xq xw xl xi xb xa) (ix2 p d)
      = tileRed xq xw xl xi xb xa p (⟨2 + d.val, by omega⟩ : Fin 66) * tileScale xq xw xl xi xb xa p := by
  unfold k0_pay1 k0_pay6 k0_pay7
  simp only [mulf, Ideal.mulf_def]
  rw [extractStridedSlice_apply _ _ slices_S128x66_o0_2_S128x64 (ix2 p d) (ix2 p (⟨2 + d.val, by omega⟩ : Fin 66))
        (fun a => by match a with | ⟨0, _⟩ => exact (Nat.zero_add _).symm | ⟨1, _⟩ => rfl),
    pay3_apply, LibDense.broadcast_col_apply, pay4_apply]

end Cert.PriorityRead

end
-- ==== Proof.KernelBlock.lean ====
/-
  One grid point's results are the specification's, row by row.

  Suppose the blocks a grid point holds are what they should be: row `p` of the query block is row `b` of the query,
  the level block's row `p` is the level of `b`, the weight block and the three rows are the weight matrix's first 512
  rows, its last row, the bias and the importances, and the auxiliary matrix has the columns `1`, `imp s` and
  `mem s d · imp s`.  Then the exponentials the body forms are `exp (logit b s)`; column 0 of its reduction is their sum,
  column 1 their importance-weighted sum, column `2 + d` the sum against `mem s d · imp s`; the scale is the fused
  arrangement's; and the two stored blocks are rows of the specification's two arrays.
-/
import proofs.«165449_g58497454572246_cont_9to1c4b_647_8_alg».proof.Proof.KernelTile

noncomputable section

open scoped BigOperators

namespace Cert.PriorityRead

open Idealize.ShloMosaic Idealize.ShloMosaic.ValueIdx Cert.KernelIdeal Cert.KernelIdeal.Gen

/-- The f32 word of 1.0 is the extended real 1. -/
theorem ofBits_one_f32 : Ideal.ofBits .f32 0x3F800000#32 = 1 := by
  simp [Ideal.ofBits, Ideal.ieee]
  rw [← EReal.coe_mul]
  norm_num

section Block

variable (q : SQuery.Idx → EReal) (il : SLevel.Idx → EReal) (W : SWeights.Idx → EReal) (bb imp : SSlots.Idx → EReal)
  (mem : SMemory.Idx → EReal)
variable (xq : Vec Ideal S128x512 .bf16) (xw : Vec Ideal S512x16384 .bf16) (xl : Vec Ideal S128x1 .f32)
  (xi xb xp : Vec Ideal S1x16384 .f32) (xa : Vec Ideal S16384x66 .bf16)
variable (b : Fin 4096) (p : Fin 128)

/-- The exponentials are those of the row's logits. -/
theorem tileExp_eq
    (hq : ∀ h : Fin 512, xq (ix2 p h) = q (ix2 b h)) (hl : xl (ix2 p (0 : Fin 1)) = il (ix1 b))
    (hw : ∀ (h : Fin 512) (s : Fin 16384), xw (ix2 h s) = W (ix2 h.castSucc s))
    (hi : ∀ s : Fin 16384, xi (ix2 (0 : Fin 1) s) = W (ix2 (Fin.last 512) s))
    (hb : ∀ s : Fin 16384, xb (ix2 (0 : Fin 1) s) = bb (ix1 s)) (s : Fin 16384) :
    tileExp xq xw xl xi xb p s = Ideal.exp (logit q il W bb b s) := by
  unfold tileExp logit
  simp only [hq, hl, hw, hi, hb]

/-- Column 0 of the reduction is the sum of the exponentials. -/
theorem tileRed_zero
    (hq : ∀ h : Fin 512, xq (ix2 p h) = q (ix2 b h)) (hl : xl (ix2 p (0 : Fin 1)) = il (ix1 b))
    (hw : ∀ (h : Fin 512) (s : Fin 16384), xw (ix2 h s) = W (ix2 h.castSucc s))
    (hi : ∀ s : Fin 16384, xi (ix2 (0 : Fin 1) s) = W (ix2 (Fin.last 512) s))
    (hb : ∀ s : Fin 16384, xb (ix2 (0 : Fin 1) s) = bb (ix1 s))
    (ha0 : ∀ s : Fin 16384, xa (ix2 s (0 : Fin 66)) = Ideal.ofBits .f32 0x3F800000#32) :
    tileRed xq xw xl xi xb xa p (0 : Fin 66) = ∑ s : Fin 16384, Ideal.exp (logit q il W bb b s) := by
  unfold tileRed
  refine Finset.sum_congr rfl fun s _ => ?_
  rw [tileExp_eq q il W bb xq xw xl xi xb b p hq hl hw hi hb, ha0, ofBits_one_f32, mul_one]

/-- Column 1 is the importance-weighted sum. -/
theorem tileRed_one
    (hq : ∀ h : Fin 512, xq (ix2 p h) = q (ix2 b h)) (hl : xl (ix2 p (0 : Fin 1)) = il (ix1 b))
    (hw : ∀ (h : Fin 512) (s : Fin 16384), xw (ix2 h s) = W (ix2 h.castSucc s))
    (hi : ∀ s : Fin 16384, xi (ix2 (0 : Fin 1) s) = W (ix2 (Fin.last 512) s))
    (hb : ∀ s : Fin 16384, xb (ix2 (0 : Fin 1) s) = bb (ix1 s))
    (ha1 : ∀ s : Fin 16384, xa (ix2 s (1 : Fin 66)) = imp (ix1 s)) :
    tileRed xq xw xl xi xb xa p (1 : Fin 66) = ∑ s : Fin 16384, Ideal.exp (logit q il W bb b s) * imp (ix1 s) := by
  unfold tileRed
  refine Finset.sum_congr rfl fun s _ => ?_
  rw [tileExp_eq q il W bb xq xw xl xi xb b p hq hl hw hi hb, ha1]

/-- Column `2 + d` is the sum against the importance-scaled memory. -/
theorem tileRed_two
    (hq : ∀ h : Fin 512, xq (ix2 p h) = q (ix2 b h)) (hl : xl (ix2 p (0 : Fin 1)) = il (ix1 b))
    (hw : ∀ (h : Fin 512) (s : Fin 16384), xw (ix2 h s) = W (ix2 h.castSucc s))
    (hi : ∀ s : Fin 16384, xi (ix2 (0 : Fin 1) s) = W (ix2 (Fin.last 512) s))
    (hb : ∀ s : Fin 16384, xb (ix2 (0 : Fin 1) s) = bb (ix1 s))
    (ha2 : ∀ (s : Fin 16384) (d : Fin 64), xa (ix2 s (⟨2 + d.val, by omega⟩ : Fin 66)) = mem (ix2 s d) * imp (ix1 s))
    (d : Fin 64) :
    tileRed xq xw xl xi xb xa p (⟨2 + d.val, by omega⟩ : Fin 66)
      = ∑ s : Fin 16384, Ideal.exp (logit q il W bb b s) * (mem (ix2 s d) * imp (ix1 s)) := by
  unfold tileRed
  refine Finset.sum_congr rfl fun s _ => ?_
  rw [tileExp_eq q il W bb xq xw xl xi xb b p hq hl hw hi hb, ha2]

/-- The row's scale is the fused arrangement's. -/
theorem tileScale_eq
    (hq : ∀ h : Fin 512, xq (ix2 p h) = q (ix2 b h)) (hl : xl (ix2 p (0 : Fin 1)) = il (ix1 b))
    (hw : ∀ (h : Fin 512) (s : Fin 16384), xw (ix2 h s) = W (ix2 h.castSucc s))
    (hi : ∀ s : Fin 16384, xi (ix2 (0 : Fin 1) s) = W (ix2 (Fin.last 512) s))
    (hb : ∀ s : Fin 16384, xb (ix2 (0 : Fin 1) s) = bb (ix1 s))
    (ha0 : ∀ s : Fin 16384, xa (ix2 s (0 : Fin 66)) = Ideal.ofBits .f32 0x3F800000#32)
    (ha1 : ∀ s : Fin 16384, xa (ix2 s (1 : Fin 66)) = imp (ix1 s)) :
    tileScale xq xw xl xi xb xa p
      = kScale epsW (fun s : Fin 16384 => Ideal.exp (logit q il W bb b s)) (fun s => imp (ix1 s)) := by
  unfold tileScale kScale kDen
  rw [tileRed_one q il W bb imp xq xw xl xi xb xa b p hq hl hw hi hb ha1,
    tileRed_zero q il W bb xq xw xl xi xb xa b p hq hl hw hi hb ha0, ofBits_one_f32]

/-- The stored weights block, at row `p` and slot `s`, is the specification's weight of batch row `b`. -/
theorem weight_block
    (hq : ∀ h : Fin 512, xq (ix2 p h) = q (ix2 b h)) (hl : xl (ix2 p (0 : Fin 1)) = il (ix1 b))
    (hw : ∀ (h : Fin 512) (s : Fin 16384), xw (ix2 h s) = W (ix2 h.castSucc s))
    (hi : ∀ s : Fin 16384, xi (ix2 (0 : Fin 1) s) = W (ix2 (Fin.last 512) s))
    (hb : ∀ s : Fin 16384, xb (ix2 (0 : Fin 1) s) = bb (ix1 s))
    (hp : ∀ s : Fin 16384, xp (ix2 (0 : Fin 1) s) = imp (ix1 s))
    (ha0 : ∀ s : Fin 16384, xa (ix2 s (0 : Fin 66)) = Ideal.ofBits .f32 0x3F800000#32)
    (ha1 : ∀ s : Fin 16384, xa (ix2 s (1 : Fin 66)) = imp (ix1 s)) (s : Fin 16384) :
    k0_pay5 (F := Ideal) xq xw xl xi xb xa xp (ix2 p s) = weightAt q il W bb imp b s := by
  rw [pay5_apply, tileExp_eq q il W bb xq xw xl xi xb b p hq hl hw hi hb, hp,
    tileScale_eq q il W bb imp xq xw xl xi xb xa b p hq hl hw hi hb ha0 ha1]
  rfl

/-- The stored read block, at row `p` and feature `d`, is the specification's read of batch row `b`. -/
theorem read_block
    (hq : ∀ h : Fin 512, xq (ix2 p h) = q (ix2 b h)) (hl : xl (ix2 p (0 : Fin 1)) = il (ix1 b))
    (hw : ∀ (h : Fin 512) (s : Fin 16384), xw (ix2 h s) = W (ix2 h.castSucc s))
    (hi : ∀ s : Fin 16384, xi (ix2 (0 : Fin 1) s) = W (ix2 (Fin.last 512) s))
    (hb : ∀ s : Fin 16384, xb (ix2 (0 : Fin 1) s) = bb (ix1 s))
    (ha0 : ∀ s : Fin 16384, xa (ix2 s (0 : Fin 66)) = Ideal.ofBits .f32 0x3F800000#32)
    (ha1 : ∀ s : Fin 16384, xa (ix2 s (1 : Fin 66)) = imp (ix1 s))
    (ha2 : ∀ (s : Fin 16384) (d : Fin 64), xa (ix2 s (⟨2 + d.val, by omega⟩ : Fin 66)) = mem (ix2 s d) * imp (ix1 s))
    (d : Fin 64) :
    k0_pay1 (F := Ideal) (k0_pay6 xq xw xl xi xb xa) (k0_pay7 xq xw xl xi xb xa) (ix2 p d)
      = readAt q il W bb mem imp b d := by
  rw [pay1_apply, tileRed_two q il W bb imp mem xq xw xl xi xb xa b p hq hl hw hi hb ha2,
    tileScale_eq q il W bb imp xq xw xl xi xb xa b p hq hl hw hi hb ha0 ha1]
  rfl

end Block

end Cert.PriorityRead

end
-- ==== Proof.KernelValue.lean ====
/-
  The two result arrays of the idealized kernel are the specification's.

  Grid point `t` works on batch rows `128 t … 128 t + 127`: its query, level and output blocks are block `t` of their
  arrays and the five shared operands are whole arrays.  So each block entry the body reads is an entry of an argument
  array (the region-entry arrays read at an index), the block the point writes back is block `t` of the specification's
  array (the block law), every index lies in the block of the point `row / 128`, and the arrays the run ends with are
  the specification's two arrays, entirely.
-/
import proofs.«165449_g58497454572246_cont_9to1c4b_647_8_alg».proof.Proof.IdealFrameRun
import proofs.«165449_g58497454572246_cont_9to1c4b_647_8_alg».proof.Proof.KernelArrays
import proofs.«165449_g58497454572246_cont_9to1c4b_647_8_alg».proof.Proof.KernelBlock
import Idealize.ShloMosaic.Lib.Pipeline.Value

noncomputable section

namespace Cert.PriorityRead

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg) (c : Dev nD)

theorem hz : (![0, 0] : Fin 2 → Nat) = fun _ => 0 := funext fun a => by fin_cases a <;> rfl

/-! ## The block index of each window at each point, decided over the 32 points -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)

theorem point_lt (t : Fin cfg0.N) : t.val < 32 := lt_of_lt_of_eq t.isLt N_0

/-- The batch row that row `p` of point `t`'s blocks is. -/
def rowOf (t : Fin cfg0.N) (p : Fin 128) : Fin 4096 :=
  ⟨t.val * 128 + p.val, by have := point_lt t; have := p.isLt; omega⟩

/-! ## The input blocks' entries as argument entries -/

theorem blk_q (t : Fin cfg0.N) (p : Fin 128) (h : Fin 512) :
    (Hand.iblk m c 0 t : S128x512.Idx → EReal) (ix2 p h) = argQ m c (ix2 (rowOf t p) h) := by
  show (Hand.V m c main_v0 : S4096x512.Idx → EReal) (((cfg0.win 0).blk t).view.emb (ix2 p h)) = _
  have e : ((cfg0.win 0).blk t).view.emb (ix2 p h) = ix2 (rowOf t p) h := by
    obtain ⟨e0, e1⟩ := idx0 t
    funext a; apply Fin.ext
    match a with
    | ⟨0, _⟩ => show win0_0.index t (0 : Fin 2) * 128 + 1 * p.val = t.val * 128 + p.val; omega
    | ⟨1, _⟩ => show win0_0.index t (1 : Fin 2) * 512 + 1 * h.val = h.val; omega
  exact (congrArg (Hand.V m c main_v0 : S4096x512.Idx → EReal) e).trans (entry_q m c (rowOf t p) h)

theorem blk_l (t : Fin cfg0.N) (p : Fin 128) :
    (Hand.iblk m c 1 t : S128x1.Idx → EReal) (ix2 p (0 : Fin 1)) = argL m c (ix1 (rowOf t p)) := by
  show (Hand.V m c main_v6 : S4096x1.Idx → EReal) (((cfg0.win 1).blk t).view.emb (ix2 p (0 : Fin 1))) = _
  have e : ((cfg0.win 1).blk t).view.emb (ix2 p (0 : Fin 1)) = ix2 (rowOf t p) (0 : Fin 1) := by
    obtain ⟨e0, e1⟩ := idx1 t
    funext a; apply Fin.ext
    match a with
    | ⟨0, _⟩ => show win0_1.index t (0 : Fin 2) * 128 + 1 * p.val = t.val * 128 + p.val; omega
    | ⟨1, _⟩ => show win0_1.index t (1 : Fin 2) * 1 + 1 * 0 = 0; omega
  exact (congrArg (Hand.V m c main_v6 : S4096x1.Idx → EReal) e).trans (entry_l m c (rowOf t p))

theorem blk_w (t : Fin cfg0.N) (h : Fin 512) (s : Fin 16384) :
    (Hand.iblk m c 2 t : S512x16384.Idx → EReal) (ix2 h s) = argW m c (ix2 h.castSucc s) := by
  show (Hand.V m c main_v2 : S512x16384.Idx → EReal) (((cfg0.win 2).blk t).view.emb (ix2 h s)) = _
  have e : ((cfg0.win 2).blk t).view.emb (ix2 h s) = ix2 h s := by
    obtain ⟨e0, e1⟩ := idx2 t
    funext a; apply Fin.ext
    match a with
    | ⟨0, _⟩ => show win0_2.index t (0 : Fin 2) * 512 + 1 * h.val = h.val; omega
    | ⟨1, _⟩ => show win0_2.index t (1 : Fin 2) * 16384 + 1 * s.val = s.val; omega
  exact (congrArg (Hand.V m c main_v2 : S512x16384.Idx → EReal) e).trans (entry_w m c h s)

theorem blk_i (t : Fin cfg0.N) (s : Fin 16384) :
    (Hand.iblk m c 3 t : S1x16384.Idx → EReal) (ix2 (0 : Fin 1) s) = argW m c (ix2 (Fin.last 512) s) := by
  show (Hand.V m c main_v5 : S1x16384.Idx → EReal) (((cfg0.win 3).blk t).view.emb (ix2 (0 : Fin 1) s)) = _
  have e : ((cfg0.win 3).blk t).view.emb (ix2 (0 : Fin 1) s) = ix2 (0 : Fin 1) s := by
    obtain ⟨e0, e1⟩ := idx3 t
    funext a; apply Fin.ext
    match a with
    | ⟨0, _⟩ => show win0_3.index t (0 : Fin 2) * 1 + 1 * 0 = 0; omega
    | ⟨1, _⟩ => show win0_3.index t (1 : Fin 2) * 16384 + 1 * s.val = s.val; omega
  exact (congrArg (Hand.V m c main_v5 : S1x16384.Idx → EReal) e).trans (entry_i m c s)

theorem blk_b (t : Fin cfg0.N) (s : Fin 16384) :
    (Hand.iblk m c 4 t : S1x16384.Idx → EReal) (ix2 (0 : Fin 1) s) = argB m c (ix1 s) := by
  show (Hand.V m c main_v7 : S1x16384.Idx → EReal) (((cfg0.win 4).blk t).view.emb (ix2 (0 : Fin 1) s)) = _
  have e : ((cfg0.win 4).blk t).view.emb (ix2 (0 : Fin 1) s) = ix2 (0 : Fin 1) s := by
    obtain ⟨e0, e1⟩ := idx4 t
    funext a; apply Fin.ext
    match a with
    | ⟨0, _⟩ => show win0_4.index t (0 : Fin 2) * 1 + 1 * 0 = 0; omega
    | ⟨1, _⟩ => show win0_4.index t (1 : Fin 2) * 16384 + 1 * s.val = s.val; omega
  exact (congrArg (Hand.V m c main_v7 : S1x16384.Idx → EReal) e).trans (entry_b m c s)

theorem blk_p (t : Fin cfg0.N) (s : Fin 16384) :
    (Hand.iblk m c 5 t : S1x16384.Idx → EReal) (ix2 (0 : Fin 1) s) = argP m c (ix1 s) := by
  show (Hand.V m c main_v8 : S1x16384.Idx → EReal) (((cfg0.win 5).blk t).view.emb (ix2 (0 : Fin 1) s)) = _
  have e : ((cfg0.win 5).blk t).view.emb (ix2 (0 : Fin 1) s) = ix2 (0 : Fin 1) s := by
    obtain ⟨e0, e1⟩ := idx5 t
    funext a; apply Fin.ext
    match a with
    | ⟨0, _⟩ => show win0_5.index t (0 : Fin 2) * 1 + 1 * 0 = 0; omega
    | ⟨1, _⟩ => show win0_5.index t (1 : Fin 2) * 16384 + 1 * s.val = s.val; omega
  exact (congrArg (Hand.V m c main_v8 : S1x16384.Idx → EReal) e).trans (entry_p m c s)

theorem blk_a_emb (t : Fin cfg0.N) (s : Fin 16384) (j : Fin 66) :
    ((cfg0.win 6).blk t).view.emb (ix2 s j) = ix2 s j := by
  obtain ⟨e0, e1⟩ := idx6 t
  funext a; apply Fin.ext
  match a with
  | ⟨0, _⟩ => show win0_6.index t (0 : Fin 2) * 16384 + 1 * s.val = s.val; omega
  | ⟨1, _⟩ => show win0_6.index t (1 : Fin 2) * 66 + 1 * j.val = j.val; omega

theorem blk_a0 (t : Fin cfg0.N) (s : Fin 16384) :
    (Hand.iblk m c 6 t : S16384x66.Idx → EReal) (ix2 s (0 : Fin 66)) = Ideal.ofBits .f32 0x3F800000#32 := by
  show (Hand.V m c main_v15 : S16384x66.Idx → EReal) (((cfg0.win 6).blk t).view.emb (ix2 s (0 : Fin 66))) = _
  exact (congrArg (Hand.V m c main_v15 : S16384x66.Idx → EReal) (blk_a_emb t s 0)).trans (entry_a0 m c s)

theorem blk_a1 (t : Fin cfg0.N) (s : Fin 16384) :
    (Hand.iblk m c 6 t : S16384x66.Idx → EReal) (ix2 s (1 : Fin 66)) = argP m c (ix1 s) := by
  show (Hand.V m c main_v15 : S16384x66.Idx → EReal) (((cfg0.win 6).blk t).view.emb (ix2 s (1 : Fin 66))) = _
  exact (congrArg (Hand.V m c main_v15 : S16384x66.Idx → EReal) (blk_a_emb t s 1)).trans (entry_a1 m c s)

theorem blk_a2 (t : Fin cfg0.N) (s : Fin 16384) (d : Fin 64) :
    (Hand.iblk m c 6 t : S16384x66.Idx → EReal) (ix2 s (⟨2 + d.val, by omega⟩ : Fin 66))
      = argM m c (ix2 s d) * argP m c (ix1 s) := by
  show (Hand.V m c main_v15 : S16384x66.Idx → EReal) (((cfg0.win 6).blk t).view.emb (ix2 s (⟨2 + d.val, by omega⟩ : Fin 66))) = _
  exact (congrArg (Hand.V m c main_v15 : S16384x66.Idx → EReal) (blk_a_emb t s _)).trans (entry_a2 m c s d)

/-! ## What a point writes back is its block of the specification's arrays -/

/-- The specification's weights array of the launch's arguments. -/
abbrev specW : SOutW.Idx → EReal := weightOut (argQ m c) (argL m c) (argW m c) (argB m c) (argP m c)
/-- The specification's read array of the launch's arguments. -/
abbrev specR : SOutR.Idx → EReal := readOut (argQ m c) (argL m c) (argW m c) (argB m c) (argM m c) (argP m c)

theorem flushed8_eq (t : Fin cfg0.N) :
    (Hand.dats m 0 c).flushed 8 t = ((cfg0.win 8).blk t).view.read (Elt Ideal) (specW m c) := by
  show (cfg0.win 8).cut (grid0.coords t) ((Hand.dats m 0 c).after 8 t) = _
  rw [Hand.after0_8]
  unfold Hand.out0_8
  rw [View.canon_unit_zero hz]
  simp only [View.ld_unit_zero (S := S128x512) hz, View.ld_unit_zero (S := S512x16384) hz,
    View.ld_unit_zero (S := S128x1) hz, View.ld_unit_zero (S := S1x16384) hz, View.ld_unit_zero (S := S16384x66) hz]
  funext j
  obtain ⟨p, s, rfl⟩ : ∃ (p : Fin 128) (s : Fin 16384), j = ix2 p s := ⟨j 0, j 1, eq_ix2 j⟩
  show k0_pay5 (F := Ideal) (Hand.iblk m c 0 t) (Hand.iblk m c 2 t) (Hand.iblk m c 1 t) (Hand.iblk m c 3 t)
      (Hand.iblk m c 4 t) (Hand.iblk m c 6 t) (Hand.iblk m c 5 t) (ix2 p s)
    = specW m c (((cfg0.win 8).blk t).view.emb (ix2 p s))
  have e : ((cfg0.win 8).blk t).view.emb (ix2 p s) = ix2 (rowOf t p) s := by
    obtain ⟨e0, e1⟩ := idx8 t
    funext a; apply Fin.ext
    match a with
    | ⟨0, _⟩ => show win0_8.index t (0 : Fin 2) * 128 + 1 * p.val = t.val * 128 + p.val; omega
    | ⟨1, _⟩ => show win0_8.index t (1 : Fin 2) * 16384 + 1 * s.val = s.val; omega
  refine Eq.trans ?_ (congrArg (specW m c) e).symm
  exact weight_block (argQ m c) (argL m c) (argW m c) (argB m c) (argP m c)
    (Hand.iblk m c 0 t) (Hand.iblk m c 2 t) (Hand.iblk m c 1 t) (Hand.iblk m c 3 t) (Hand.iblk m c 4 t) (Hand.iblk m c 5 t)
    (Hand.iblk m c 6 t) (rowOf t p) p
    (fun h => blk_q m c t p h) (blk_l m c t p) (fun h s => blk_w m c t h s) (fun s => blk_i m c t s)
    (fun s => blk_b m c t s) (fun s => blk_p m c t s) (fun s => blk_a0 m c t s) (fun s => blk_a1 m c t s) s

theorem flushed7_eq (t : Fin cfg0.N) :
    (Hand.dats m 0 c).flushed 7 t = ((cfg0.win 7).blk t).view.read (Elt Ideal) (specR m c) := by
  show (cfg0.win 7).cut (grid0.coords t) ((Hand.dats m 0 c).after 7 t) = _
  rw [Hand.after0_7]
  unfold Hand.out0_7
  rw [View.canon_unit_zero hz]
  simp only [View.ld_unit_zero (S := S128x512) hz, View.ld_unit_zero (S := S512x16384) hz,
    View.ld_unit_zero (S := S128x1) hz, View.ld_unit_zero (S := S1x16384) hz, View.ld_unit_zero (S := S16384x66) hz]
  funext j
  obtain ⟨p, d, rfl⟩ : ∃ (p : Fin 128) (d : Fin 64), j = ix2 p d := ⟨j 0, j 1, eq_ix2 j⟩
  show k0_pay1 (F := Ideal)
      (k0_pay6 (Hand.iblk m c 0 t) (Hand.iblk m c 2 t) (Hand.iblk m c 1 t) (Hand.iblk m c 3 t) (Hand.iblk m c 4 t) (Hand.iblk m c 6 t))
      (k0_pay7 (Hand.iblk m c 0 t) (Hand.iblk m c 2 t) (Hand.iblk m c 1 t) (Hand.iblk m c 3 t) (Hand.iblk m c 4 t) (Hand.iblk m c 6 t))
      (ix2 p d)
    = specR m c (((cfg0.win 7).blk t).view.emb (ix2 p d))
  have e : ((cfg0.win 7).blk t).view.emb (ix2 p d) = ix2 (rowOf t p) d := by
    obtain ⟨e0, e1⟩ := idx7 t
    funext a; apply Fin.ext
    match a with
    | ⟨0, _⟩ => show win0_7.index t (0 : Fin 2) * 128 + 1 * p.val = t.val * 128 + p.val; omega
    | ⟨1, _⟩ => show win0_7.index t (1 : Fin 2) * 64 + 1 * d.val = d.val; omega
  refine Eq.trans ?_ (congrArg (specR m c) e).symm
  exact read_block (argQ m c) (argL m c) (argW m c) (argB m c) (argP m c) (argM m c)
    (Hand.iblk m c 0 t) (Hand.iblk m c 2 t) (Hand.iblk m c 1 t) (Hand.iblk m c 3 t) (Hand.iblk m c 4 t)
    (Hand.iblk m c 6 t) (rowOf t p) p
    (fun h => blk_q m c t p h) (blk_l m c t p) (fun h s => blk_w m c t h s) (fun s => blk_i m c t s)
    (fun s => blk_b m c t s) (fun s => blk_a0 m c t s) (fun s => blk_a1 m c t s) (fun s d => blk_a2 m c t s d) d

/-! ## Every index is in some point's block -/

theorem mem_blk8 (t : Fin cfg0.N) (i : S4096x16384.Idx) :
    i ∈ ((cfg0.win 8).blk t).view.set ↔ ∀ a : Fin 2, win0_8.index t a * S128x16384.size a ≤ (i a).val
      ∧ (i a).val < win0_8.index t a * S128x16384.size a + S128x16384.size a := by
  show i ∈ ((View.whole main_v16_1).slice (win0_8.rect t)).set ↔ _
  rw [View.set_slice_whole, Rect.mem_set_unit]
  exact Iff.rfl

theorem mem_blk7 (t : Fin cfg0.N) (i : S4096x64.Idx) :
    i ∈ ((cfg0.win 7).blk t).view.set ↔ ∀ a : Fin 2, win0_7.index t a * S128x64.size a ≤ (i a).val
      ∧ (i a).val < win0_7.index t a * S128x64.size a + S128x64.size a := by
  show i ∈ ((View.whole main_v16_0).slice (win0_7.rect t)).set ↔ _
  rw [View.set_slice_whole, Rect.mem_set_unit]
  exact Iff.rfl

theorem cover8 (i : S4096x16384.Idx) :
    ∃ t : Fin cfg0.N, (cfg0.win 8).flush t = true ∧ i ∈ ((cfg0.win 8).blk t).view.set := by
  have hi0 : (i 0).val < 4096 := idx2_lt0 i
  have hi1 : (i 1).val < 16384 := idx2_lt1 i
  have hlt : (i 0).val / 128 < cfg0.N := lt_of_lt_of_eq (by omega : (i 0).val / 128 < 32) N_0.symm
  refine ⟨⟨(i 0).val / 128, hlt⟩, flush0_8 _, ?_⟩
  rw [mem_blk8]
  obtain ⟨e0, e1⟩ := idx8 ⟨(i 0).val / 128, hlt⟩
  have et : (⟨(i 0).val / 128, hlt⟩ : Fin cfg0.N).val = (i 0).val / 128 := rfl
  intro a
  match a with
  | ⟨0, _⟩ =>
    show win0_8.index ⟨(i 0).val / 128, hlt⟩ (0 : Fin 2) * 128 ≤ (i 0).val
      ∧ (i 0).val < win0_8.index ⟨(i 0).val / 128, hlt⟩ (0 : Fin 2) * 128 + 128
    omega
  | ⟨1, _⟩ =>
    show win0_8.index ⟨(i 0).val / 128, hlt⟩ (1 : Fin 2) * 16384 ≤ (i 1).val
      ∧ (i 1).val < win0_8.index ⟨(i 0).val / 128, hlt⟩ (1 : Fin 2) * 16384 + 16384
    omega

theorem cover7 (i : S4096x64.Idx) :
    ∃ t : Fin cfg0.N, (cfg0.win 7).flush t = true ∧ i ∈ ((cfg0.win 7).blk t).view.set := by
  have hi0 : (i 0).val < 4096 := idx2_lt0 i
  have hi1 : (i 1).val < 64 := idx2_lt1 i
  have hlt : (i 0).val / 128 < cfg0.N := lt_of_lt_of_eq (by omega : (i 0).val / 128 < 32) N_0.symm
  refine ⟨⟨(i 0).val / 128, hlt⟩, flush0_7 _, ?_⟩
  rw [mem_blk7]
  obtain ⟨e0, e1⟩ := idx7 ⟨(i 0).val / 128, hlt⟩
  have et : (⟨(i 0).val / 128, hlt⟩ : Fin cfg0.N).val = (i 0).val / 128 := rfl
  intro a
  match a with
  | ⟨0, _⟩ =>
    show win0_7.index ⟨(i 0).val / 128, hlt⟩ (0 : Fin 2) * 128 ≤ (i 0).val
      ∧ (i 0).val < win0_7.index ⟨(i 0).val / 128, hlt⟩ (0 : Fin 2) * 128 + 128
    omega
  | ⟨1, _⟩ =>
    show win0_7.index ⟨(i 0).val / 128, hlt⟩ (1 : Fin 2) * 64 ≤ (i 1).val
      ∧ (i 1).val < win0_7.index ⟨(i 0).val / 128, hlt⟩ (1 : Fin 2) * 64 + 64
    omega

/-! ## The arrays after the run -/

theorem weight_final : (Hand.dats m 0 c).arrAt 8 cfg0.N = specW m c :=
  (Hand.dats m 0 c).arrAt_eq_of_cover 8 (specW m c) (fun t _ => flushed8_eq m c t) cover8

theorem read_final : (Hand.dats m 0 c).arrAt 7 cfg0.N = specR m c :=
  (Hand.dats m 0 c).arrAt_eq_of_cover 7 (specR m c) (fun t _ => flushed7_eq m c t) cover7

/-- The idealized kernel's run: it terminates without a fault, its two results are the specification's two arrays of
    the arguments, and the arguments are unchanged. -/
theorem kernel_run : θ_run defs (onTc (τ := τ) (main (F := Ideal))) ⟨m, fun _ => 0, ρ⟩ fun r => ∀ c : Dev nD,
      r.2.mem ((c.tc : Thread nD τ).loc main_v16_0) = specR m c
      ∧ r.2.mem ((c.tc : Thread nD τ).loc main_v16_1) = specW m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
      ⟨((h c).1 7).trans (read_final m c), ((h c).1 8).trans (weight_final m c),
       ((h c).2 main_arg0 (Pipeline.mem_restRefs_of main_arg0 (by decide) (by decide))).trans (Hand.V_main_arg0 m c),
       ((h c).2 main_arg1 (Pipeline.mem_restRefs_of main_arg1 (by decide) (by decide))).trans (Hand.V_main_arg1 m c),
       ((h c).2 main_arg2 (Pipeline.mem_restRefs_of main_arg2 (by decide) (by decide))).trans (Hand.V_main_arg2 m c),
       ((h c).2 main_arg3 (Pipeline.mem_restRefs_of main_arg3 (by decide) (by decide))).trans (Hand.V_main_arg3 m c),
       ((h c).2 main_arg4 (Pipeline.mem_restRefs_of main_arg4 (by decide) (by decide))).trans (Hand.V_main_arg4 m c),
       ((h c).2 main_arg5 (Pipeline.mem_restRefs_of main_arg5 (by decide) (by decide))).trans (Hand.V_main_arg5 m c)⟩)
    (Hand.run_main m ρ)

end Cert.PriorityRead

end
-- ==== Proof.LibAttention.lean ====
import Idealize.ShloMosaic.PureOps.Ideal

/-! # Softmax attention with folded projections, on the extended reals

Tokens are indexed by a finite type `N`, features by a finite type `D`. From token rows `X`, two mixing matrices `R`, `E`,
three weight matrices `Wq`, `Wk`, `Wv`, three biases and a scale `σ`, single-head attention is computed in two arrangements.

* The FOLDED arrangement multiplies each weight matrix into its mixing matrix first (`Wq · R`, `Wk · E`), scales the queries by
  `σ` before the scores are taken, and divides by the softmax normalizer AFTER the weighted sum of the values:
  `(∑ⱼ pⱼ · vⱼ) / (∑ⱼ pⱼ)` with `pⱼ = exp (sⱼ − maxⱼ sⱼ)`.
* The TWO-STEP arrangement applies the mixing matrix and then the weight matrix to each token, scales the scores
  `(q · k) · σ`, and normalizes the weights BEFORE the weighted sum: `∑ⱼ (pⱼ / ∑ pⱼ) · vⱼ`.

Over the reals the two agree: matrix products associate, a common factor moves across a finite sum, and a finite sum divided by
a nonzero number is the sum of the quotients. On the extended reals these laws fail at the infinities, so the statement
assumes every input entry is a real number; then every intermediate quantity is a real (the row maximum of finitely many reals
over a nonempty index type, an exponential of a real), and the normalizer is a sum of positive reals, hence nonzero.
No program is mentioned here. -/

noncomputable section

open scoped BigOperators

namespace Cert.LibAttention

open Idealize.ShloMosaic

/-- Every entry of a two-index family is a real number. -/
def Real2 {α β : Type} (f : α → β → EReal) : Prop := ∀ a b, ∃ r : ℝ, f a b = (r : EReal)
/-- Every entry of a one-index family is a real number. -/
def Real1 {α : Type} (f : α → EReal) : Prop := ∀ a, ∃ r : ℝ, f a = (r : EReal)

variable {N D : Type} [Fintype N] [Fintype D]
variable (X : N → D → EReal) (R E Wq Wk Wv : D → D → EReal) (bq bk bv : D → EReal) (σ : EReal)

/-! ## The folded arrangement -/

/-- Scaled queries through the folded matrix `Wq · R`. -/
def fQ (n : N) (c : D) : EReal := ((∑ a, X n a * (∑ b, Wq c b * R b a)) + bq c) * σ
/-- Keys through the folded matrix `Wk · E`. -/
def fK (n : N) (c : D) : EReal := (∑ a, X n a * (∑ b, Wk c b * E b a)) + bk c
/-- Values. -/
def fV (n : N) (c : D) : EReal := (∑ a, X n a * Wv c a) + bv c
/-- Scores of the scaled queries against the keys. -/
def fS (n j : N) : EReal := ∑ c, fQ X R Wq bq σ n c * fK X E Wk bk j c
/-- Row maximum of the scores, from the bottom element. -/
def fM (n : N) : EReal := (Finset.univ : Finset N).fold max ⊥ (fun j => fS X R E Wq Wk bq bk σ n j)
/-- Unnormalized weights. -/
def fP (n j : N) : EReal := Ideal.exp (fS X R E Wq Wk bq bk σ n j - fM X R E Wq Wk bq bk σ n)
/-- Weighted sum of the values, divided by the normalizer afterwards. -/
def fO (n : N) (c : D) : EReal :=
  Ideal.div (∑ j, fP X R E Wq Wk bq bk σ n j * fV X Wv bv j c) (∑ j, fP X R E Wq Wk bq bk σ n j)

/-! ## The two-step arrangement -/

/-- Queries: the mixing matrix, then the weight matrix. -/
def gQ (n : N) (c : D) : EReal := (∑ b, (∑ a, X n a * R b a) * Wq c b) + bq c
/-- Keys: the mixing matrix, then the weight matrix. -/
def gK (n : N) (c : D) : EReal := (∑ b, (∑ a, X n a * E b a) * Wk c b) + bk c
/-- Scores, scaled after the product. -/
def gS (n j : N) : EReal := (∑ c, gQ X R Wq bq n c * gK X E Wk bk j c) * σ
/-- Row maximum of the scaled scores, from the bottom element. -/
def gM (n : N) : EReal := (Finset.univ : Finset N).fold max ⊥ (fun j => gS X R E Wq Wk bq bk σ n j)
/-- Unnormalized weights. -/
def gP (n j : N) : EReal := Ideal.exp (gS X R E Wq Wk bq bk σ n j - gM X R E Wq Wk bq bk σ n)
/-- Weighted sum of the values with weights normalized first. -/
def gO (n : N) (c : D) : EReal :=
  ∑ j, Ideal.div (gP X R E Wq Wk bq bk σ n j) (∑ j', gP X R E Wq Wk bq bk σ n j') * fV X Wv bv j c

/-! ## Real entries: coercions move outward

When every entry is the coercion of a real, each intermediate quantity of either arrangement is the coercion of the
corresponding real expression, because the coercion commutes with products, sums and finite sums. -/

/-- The coercion of a finite sum of reals is the sum of the coercions (the coercion is additive). -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Entrywise coercion of a real two-index family. -/
def c2 {α β : Type} (f : α → β → ℝ) : α → β → EReal := fun a b => (f a b : EReal)
/-- Entrywise coercion of a real one-index family. -/
def c1 {α : Type} (f : α → ℝ) : α → EReal := fun a => (f a : EReal)

/-- A two-index family of real entries is the entrywise coercion of a real family. -/
theorem Real2.exists_coe {α β : Type} {f : α → β → EReal} (h : Real2 f) : ∃ g : α → β → ℝ, f = c2 g := by
  choose g hg using h
  exact ⟨g, funext fun a => funext fun b => hg a b⟩

/-- A one-index family of real entries is the entrywise coercion of a real family. -/
theorem Real1.exists_coe {α : Type} {f : α → EReal} (h : Real1 f) : ∃ g : α → ℝ, f = c1 g := by
  choose g hg using h
  exact ⟨g, funext hg⟩

section RealForms

variable (x : N → D → ℝ) (r e wq wk wv m w : D → D → ℝ) (aq ak av b : D → ℝ) (s : ℝ)

/-- Matrix products associate: a row through the folded matrix is the row through the mixing matrix, then the weight
matrix. Both sides are the same double sum, by distributing and exchanging the order of summation. -/
theorem fold_eq (y : D → ℝ) (u : D → ℝ) :
    ∑ a, y a * (∑ b', u b' * m b' a) = ∑ b', (∑ a, y a * m b' a) * u b' := by
  simp only [Finset.mul_sum, Finset.sum_mul]
  rw [Finset.sum_comm]
  exact Finset.sum_congr rfl fun b' _ => Finset.sum_congr rfl fun a _ => by ring

/-- The real projection: the mixing matrix, then the weight matrix, plus the bias. -/
def rProj (n : N) (c : D) : ℝ := (∑ b', (∑ a, x n a * m b' a) * w c b') + b c

/-- The real scaled score. -/
def rS (n j : N) : ℝ := (∑ c, rProj x r wq aq n c * rProj x e wk ak j c) * s

/-- The real value row. -/
def rV (n : N) (c : D) : ℝ := (∑ a, x n a * wv c a) + av c

theorem gQ_coe (n : N) (c : D) : gQ (c2 x) (c2 m) (c2 w) (c1 b) n c = (rProj x m w b n c : EReal) := by
  simp only [gQ, rProj, c1, c2, coe_sum, EReal.coe_add, EReal.coe_mul]

theorem gK_coe (n : N) (c : D) : gK (c2 x) (c2 m) (c2 w) (c1 b) n c = (rProj x m w b n c : EReal) := by
  simp only [gK, rProj, c1, c2, coe_sum, EReal.coe_add, EReal.coe_mul]

theorem fK_coe (n : N) (c : D) : fK (c2 x) (c2 m) (c2 w) (c1 b) n c = (rProj x m w b n c : EReal) := by
  rw [rProj, ← fold_eq m (x n) (w c)]
  simp only [fK, c1, c2, coe_sum, EReal.coe_add, EReal.coe_mul]

theorem fQ_coe (n : N) (c : D) :
    fQ (c2 x) (c2 m) (c2 w) (c1 b) (s : EReal) n c = ((rProj x m w b n c * s : ℝ) : EReal) := by
  rw [rProj, ← fold_eq m (x n) (w c)]
  simp only [fQ, c1, c2, coe_sum, EReal.coe_add, EReal.coe_mul]

theorem fV_coe (n : N) (c : D) : fV (c2 x) (c2 wv) (c1 av) n c = (rV x wv av n c : EReal) := by
  simp only [fV, rV, c1, c2, coe_sum, EReal.coe_add, EReal.coe_mul]

/-- The two-step scores are the coercions of the real scaled scores. -/
theorem gS_coe (n j : N) :
    gS (c2 x) (c2 r) (c2 e) (c2 wq) (c2 wk) (c1 aq) (c1 ak) (s : EReal) n j = (rS x r e wq wk aq ak s n j : EReal) := by
  simp only [gS, gQ_coe, gK_coe, rS, coe_sum, EReal.coe_mul]

/-- The folded scores are the coercions of the same real scaled scores: the common factor moves across the finite sum. -/
theorem fS_coe (n j : N) :
    fS (c2 x) (c2 r) (c2 e) (c2 wq) (c2 wk) (c1 aq) (c1 ak) (s : EReal) n j = (rS x r e wq wk aq ak s n j : EReal) := by
  have h : rS x r e wq wk aq ak s n j = ∑ c, (rProj x r wq aq n c * s) * rProj x e wk ak j c := by
    rw [rS, Finset.sum_mul]
    exact Finset.sum_congr rfl fun c _ => by ring
  rw [h]
  simp only [fS, fQ_coe, fK_coe, coe_sum, EReal.coe_mul]

end RealForms

/-! ## The row maximum and the normalizer -/

/-- The running maximum, from the bottom element, of finitely many reals over a nonempty set is a real: the bottom
element is absorbed by the first entry, and the maximum of two reals is a real. -/
theorem fold_max_real {ι : Type} (t : ι → ℝ) (s : Finset ι) (hs : s.Nonempty) :
    ∃ m : ℝ, s.fold max ⊥ (fun j => (t j : EReal)) = (m : EReal) := by
  classical
  induction s using Finset.induction_on with
  | empty => exact absurd hs Finset.not_nonempty_empty
  | insert a s ha ih =>
    rw [Finset.fold_insert ha]
    rcases s.eq_empty_or_nonempty with rfl | hne
    · exact ⟨t a, by rw [Finset.fold_empty, max_bot_right]⟩
    · obtain ⟨m, hm⟩ := ih hne
      exact ⟨max (t a) m, by rw [hm, EReal.coe_strictMono.monotone.map_max]⟩

/-- With positive real weights over a nonempty index type the normalizer is a nonzero real, so dividing the weighted sum
by it is multiplying by its reciprocal, and the reciprocal distributes over the finite sum. -/
theorem div_sum_eq (p v : N → ℝ) (hp : ∀ j, 0 < p j) (n : N) :
    Ideal.div (∑ j, (p j : EReal) * (v j : EReal)) (∑ j, (p j : EReal))
      = ∑ j, Ideal.div (p j : EReal) (∑ j', (p j' : EReal)) * (v j : EReal) := by
  have hL : (∑ j, p j) ≠ 0 := (Finset.sum_pos (fun j _ => hp j) ⟨n, Finset.mem_univ n⟩).ne'
  rw [← coe_sum Finset.univ p]
  simp only [Ideal.div_coe hL, ← EReal.coe_mul, ← coe_sum]
  congr 1
  rw [Finset.sum_mul]
  exact Finset.sum_congr rfl fun j _ => by ring

/-- The two arrangements agree when every input is the entrywise coercion of a real family. -/
theorem attention_eq_coe (x : N → D → ℝ) (r e wq wk wv : D → D → ℝ) (aq ak av : D → ℝ) (s : ℝ) (n : N) (c : D) :
    fO (c2 x) (c2 r) (c2 e) (c2 wq) (c2 wk) (c2 wv) (c1 aq) (c1 ak) (c1 av) (s : EReal) n c
      = gO (c2 x) (c2 r) (c2 e) (c2 wq) (c2 wk) (c2 wv) (c1 aq) (c1 ak) (c1 av) (s : EReal) n c := by
  obtain ⟨m, hm⟩ := fold_max_real (fun j => rS x r e wq wk aq ak s n j) Finset.univ ⟨n, Finset.mem_univ n⟩
  have hfM : fM (c2 x) (c2 r) (c2 e) (c2 wq) (c2 wk) (c1 aq) (c1 ak) (s : EReal) n = (m : EReal) := by
    simp only [fM, fS_coe]
    exact hm
  have hgM : gM (c2 x) (c2 r) (c2 e) (c2 wq) (c2 wk) (c1 aq) (c1 ak) (s : EReal) n = (m : EReal) := by
    simp only [gM, gS_coe]
    exact hm
  have hfP : ∀ j, fP (c2 x) (c2 r) (c2 e) (c2 wq) (c2 wk) (c1 aq) (c1 ak) (s : EReal) n j
      = ((Real.exp (rS x r e wq wk aq ak s n j - m) : ℝ) : EReal) := fun j => by
    rw [fP, fS_coe, hfM, ← EReal.coe_sub, Ideal.exp_coe]
  have hgP : ∀ j, gP (c2 x) (c2 r) (c2 e) (c2 wq) (c2 wk) (c1 aq) (c1 ak) (s : EReal) n j
      = ((Real.exp (rS x r e wq wk aq ak s n j - m) : ℝ) : EReal) := fun j => by
    rw [gP, gS_coe, hgM, ← EReal.coe_sub, Ideal.exp_coe]
  simp only [fO, gO, hfP, hgP, fV_coe]
  exact div_sum_eq (fun j => Real.exp (rS x r e wq wk aq ak s n j - m)) (fun j => rV x wv av j c)
    (fun j => Real.exp_pos _) n

/-! ## The two arrangements agree at real entries -/

/-- At real entries and a real scale the folded arrangement and the two-step arrangement give the same output, entry by entry. -/
theorem attention_eq (hX : Real2 X) (hR : Real2 R) (hE : Real2 E) (hWq : Real2 Wq) (hWk : Real2 Wk) (hWv : Real2 Wv)
    (hbq : Real1 bq) (hbk : Real1 bk) (hbv : Real1 bv) (hσ : ∃ r : ℝ, σ = (r : EReal)) (n : N) (c : D) :
    fO X R E Wq Wk Wv bq bk bv σ n c = gO X R E Wq Wk Wv bq bk bv σ n c := by
  obtain ⟨x, rfl⟩ := hX.exists_coe
  obtain ⟨r, rfl⟩ := hR.exists_coe
  obtain ⟨e, rfl⟩ := hE.exists_coe
  obtain ⟨wq, rfl⟩ := hWq.exists_coe
  obtain ⟨wk, rfl⟩ := hWk.exists_coe
  obtain ⟨wv, rfl⟩ := hWv.exists_coe
  obtain ⟨aq, rfl⟩ := hbq.exists_coe
  obtain ⟨ak, rfl⟩ := hbk.exists_coe
  obtain ⟨av, rfl⟩ := hbv.exists_coe
  obtain ⟨s, rfl⟩ := hσ
  exact attention_eq_coe x r e wq wk wv aq ak av s n c

end Cert.LibAttention
-- ==== Proof.RefRows.lean ====
/-
  What the reference program computes, index by index.

  The reference forms, for every batch row, the logits of the row against all memory slots, subtracts the row's maximum,
  exponentiates, divides by the row's sum (a softmax), multiplies by the slots' importance, divides by the row's sum of
  those products plus a small constant, and finally reads the memory with the resulting weights.  Each stage is read here
  at one index from the stages before it, until the three results (the renormalisation's divisor, the weights, the read)
  are the two-pass row quantities of the specification, with the row's shift being the row's maximum.
-/
import proofs.«165449_g58497454572246_cont_9to1c4b_647_8_alg».proof.Proof.Gen.ReferenceIdeal.Read
import proofs.«165449_g58497454572246_cont_9to1c4b_647_8_alg».proof.Proof.Spec
import proofs.«165449_g58497454572246_cont_9to1c4b_647_8_alg».proof.Proof.LibAttention
import proofs.«165449_g58497454572246_cont_9to1c4b_647_8_alg».proof.Proof.LibKeepdims
import Idealize.ShloMosaic.Lib.ValueIdx
import Idealize.ShloMosaic.Lib.Pipeline.Value
import Idealize.ShloMosaic.PureOps.Ideal.Laws

noncomputable section

open scoped BigOperators

namespace Cert.PriorityRead

open Idealize.ShloMosaic Idealize.ShloMosaic.ValueIdx Cert.ReferenceIdeal Cert.ReferenceIdeal.Gen

/-! ## The inputs and the row's shift -/

variable (x0 : (⟨S4096x512, .f32⟩ : BufTy).Contents (Elt Ideal)) (x1 : (⟨S4096, .f32⟩ : BufTy).Contents (Elt Ideal))
  (x2 : (⟨S513x16384, .f32⟩ : BufTy).Contents (Elt Ideal)) (x3 : (⟨S16384, .f32⟩ : BufTy).Contents (Elt Ideal))
  (x4 : (⟨S16384x64, .f32⟩ : BufTy).Contents (Elt Ideal)) (x5 : (⟨S16384, .f32⟩ : BufTy).Contents (Elt Ideal))

/-! ## The joined query: the query's 512 columns, then the integration level as column 512 -/

/-- A column below 512 of the joined array is the query's. -/
theorem joined_left (b : Fin 4096) (h : Fin 512) :
    Read.val_main_v1 (F := Ideal) x0 x1 (ix2 b h.castSucc) = x0 (ix2 b h) := by
  unfold Read.val_main_v1
  exact concatenate_pair_apply_left (1 : Fin S4096x513.rank) x0 _ concatenates_S4096x512_S4096x1_S4096x513_d1
    (ix2 b h.castSucc) rfl (ix2 b h) (fun a => match a with | ⟨0, _⟩ => rfl | ⟨1, _⟩ => rfl)

/-- Column 512 of the joined array is the row's integration level. -/
theorem joined_right (b : Fin 4096) :
    Read.val_main_v1 (F := Ideal) x0 x1 (ix2 b (Fin.last 512)) = x1 (ix1 b) := by
  unfold Read.val_main_v1
  rw [concatenate_pair_apply_right (1 : Fin S4096x513.rank) x0 (Read.val_main_v0 (F := Ideal) x1)
    concatenates_S4096x512_S4096x1_S4096x513_d1 (ix2 b (Fin.last 512)) rfl rfl (ix2 b (0 : Fin 1))
    (fun a => match a with | ⟨0, _⟩ => fun _ => rfl | ⟨1, _⟩ => fun hne => absurd rfl hne) rfl,
    Read.val_main_v0_apply]
  exact congrArg x1 (funext fun a => Fin.ext (by match a with | ⟨0, _⟩ => rfl))

/-! ## The logits -/

/-- The reference's logit is the specification's: the sum over the 513 joined columns is the sum over the query's 512
    plus the last term, and the bias is added after. -/
theorem ref_logit (b : Fin 4096) (s : Fin 16384) :
    Read.val_main_v5 (F := Ideal) x0 x1 x2 x3 (ix2 b s) = logit x0 x1 x2 x3 b s := by
  have el : ∀ k : Fin 513, Read.lidx_main_v2 (ix2 b s) k = ix2 b k := fun k =>
    funext fun a => Fin.ext (by match a with | ⟨0, _⟩ => rfl | ⟨1, _⟩ => rfl)
  have er : ∀ k : Fin 513, Read.ridx_main_v2 (ix2 b s) k = ix2 k s := fun k =>
    funext fun a => Fin.ext (by match a with | ⟨0, _⟩ => rfl | ⟨1, _⟩ => rfl)
  have eb : Read.idx_main_v3 (Read.idx_main_v4 (ix2 b s)) = ix1 s :=
    funext fun a => Fin.ext (by match a with | ⟨0, _⟩ => rfl)
  rw [Read.val_main_v5_apply, Read.val_main_v2_apply, Read.val_main_v4_apply, Read.val_main_v3_apply, eb,
    Fin.sum_univ_castSucc]
  simp only [el, er, joined_left, joined_right, Ideal.addf_def]
  rfl

/-! ## The stages of the softmax, row by row

Throughout, the row's shift is the reference's row maximum, stage 8 read at the row. -/

/-- The shifted logit. -/
theorem ref_shifted (b : Fin 4096) (s : Fin 16384) :
    Read.val_main_v11 (F := Ideal) x0 x1 x2 x3 (ix2 b s)
      = logit x0 x1 x2 x3 b s - Read.val_main_v8 (F := Ideal) x0 x1 x2 x3 (ix1 b) := by
  have e : Read.idx_main_v9 (Read.idx_main_v10 (ix2 b s)) = ix1 b :=
    funext fun a => Fin.ext (by match a with | ⟨0, _⟩ => rfl)
  rw [Read.val_main_v11_apply, ref_logit, Read.val_main_v10_apply, Read.val_main_v9_apply, e]
  rfl

/-- Its exponential. -/
theorem ref_exp (b : Fin 4096) (s : Fin 16384) :
    Read.val_main_v12 (F := Ideal) x0 x1 x2 x3 (ix2 b s)
      = Ideal.exp (logit x0 x1 x2 x3 b s - Read.val_main_v8 (F := Ideal) x0 x1 x2 x3 (ix1 b)) := by
  rw [Read.val_main_v12_apply, ref_shifted]
  rfl

/-- The row's sum of exponentials: the sum starts from the zero word. -/
theorem ref_expSum (b : Fin 4096) :
    Read.val_main_v13 (F := Ideal) x0 x1 x2 x3 (ix1 b)
      = ∑ s' : Fin 16384, Ideal.exp (logit x0 x1 x2 x3 b s' - Read.val_main_v8 (F := Ideal) x0 x1 x2 x3 (ix1 b)) := by
  have e : ∀ k : Fin 16384, Read.idx_main_v13 (ix1 b) k = ix2 b k := fun k =>
    funext fun a => Fin.ext (by match a with | ⟨0, _⟩ => rfl | ⟨1, _⟩ => rfl)
  rw [Read.val_main_v13_apply, Read.val_main_cst_1_apply, Ideal.ofBits_def, Ideal.ofBits_zero_f32, zero_add]
  simp only [e, ref_exp]

/-- The softmax weight. -/
theorem ref_soft (b : Fin 4096) (s : Fin 16384) :
    Read.val_main_v16 (F := Ideal) x0 x1 x2 x3 (ix2 b s)
      = rSoft (fun s' => logit x0 x1 x2 x3 b s') (Read.val_main_v8 (F := Ideal) x0 x1 x2 x3 (ix1 b)) s := by
  have e : Read.idx_main_v14 (Read.idx_main_v15 (ix2 b s)) = ix1 b :=
    funext fun a => Fin.ext (by match a with | ⟨0, _⟩ => rfl)
  rw [Read.val_main_v16_apply, ref_exp, Read.val_main_v15_apply, Read.val_main_v14_apply, e, ref_expSum]
  rfl

/-- The softmax weight times the slot's importance. -/
theorem ref_softImp (b : Fin 4096) (s : Fin 16384) :
    Read.val_main_v19 (F := Ideal) x0 x1 x2 x3 x5 (ix2 b s)
      = rSoft (fun s' => logit x0 x1 x2 x3 b s') (Read.val_main_v8 (F := Ideal) x0 x1 x2 x3 (ix1 b)) s * x5 (ix1 s) := by
  have e : Read.idx_main_v17 (Read.idx_main_v18 (ix2 b s)) = ix1 s :=
    funext fun a => Fin.ext (by match a with | ⟨0, _⟩ => rfl)
  rw [Read.val_main_v19_apply, ref_soft, Read.val_main_v18_apply, Read.val_main_v17_apply, e]
  rfl

/-- The renormalisation's divisor: the row's sum of those products, from the zero word, plus the constant. -/
theorem ref_den (b : Fin 4096) :
    Read.val_main_v23 (F := Ideal) x0 x1 x2 x3 x5 (ix2 b (0 : Fin 1))
      = rDen epsW (fun s => logit x0 x1 x2 x3 b s) (fun s => x5 (ix1 s))
          (Read.val_main_v8 (F := Ideal) x0 x1 x2 x3 (ix1 b)) := by
  have e : Read.idx_main_v21 (ix2 b (0 : Fin 1)) = ix1 b :=
    funext fun a => Fin.ext (by match a with | ⟨0, _⟩ => rfl)
  have ek : ∀ k : Fin 16384, Read.idx_main_v20 (ix1 b) k = ix2 b k := fun k =>
    funext fun a => Fin.ext (by match a with | ⟨0, _⟩ => rfl | ⟨1, _⟩ => rfl)
  rw [Read.val_main_v23_apply, Read.val_main_v21_apply, e, Read.val_main_v20_apply, Read.val_main_cst_2_apply,
    Ideal.ofBits_def, Ideal.ofBits_zero_f32, zero_add, Read.val_main_v22_apply, Read.val_main_cst_3_apply]
  simp only [ek, ref_softImp]
  rfl

/-- The renormalised importance weight. -/
theorem ref_weight (b : Fin 4096) (s : Fin 16384) :
    Read.val_main_v25 (F := Ideal) x0 x1 x2 x3 x5 (ix2 b s)
      = rWeight epsW (fun s' => logit x0 x1 x2 x3 b s') (fun s' => x5 (ix1 s'))
          (Read.val_main_v8 (F := Ideal) x0 x1 x2 x3 (ix1 b)) s := by
  have e : Read.idx_main_v24 (ix2 b s) = ix2 b (0 : Fin 1) :=
    funext fun a => Fin.ext (by match a with | ⟨0, _⟩ => rfl | ⟨1, _⟩ => rfl)
  rw [Read.val_main_v25_apply, ref_softImp, Read.val_main_v24_apply, e, ref_den]
  rfl

/-- The read content: the weights against the memory's column. -/
theorem ref_read (b : Fin 4096) (d : Fin 64) :
    Read.val_main_v26 (F := Ideal) x0 x1 x2 x3 x4 x5 (ix2 b d)
      = rRead epsW (fun s => logit x0 x1 x2 x3 b s) (fun s => x5 (ix1 s))
          (Read.val_main_v8 (F := Ideal) x0 x1 x2 x3 (ix1 b)) (fun s d' => x4 (ix2 s d')) d := by
  have el : ∀ k : Fin 16384, Read.lidx_main_v26 (ix2 b d) k = ix2 b k := fun k =>
    funext fun a => Fin.ext (by match a with | ⟨0, _⟩ => rfl | ⟨1, _⟩ => rfl)
  have er : ∀ k : Fin 16384, Read.ridx_main_v26 (ix2 b d) k = ix2 k d := fun k =>
    funext fun a => Fin.ext (by match a with | ⟨0, _⟩ => rfl | ⟨1, _⟩ => rfl)
  rw [Read.val_main_v26_apply]
  simp only [el, er, ref_weight]
  rfl

/-! ## The row's shift is the row's maximum, and a real -/

/-- The reference's shift is the running maximum, from −∞, of the row's logits: the reduce starts from the −∞ word, and
    the further maximum with a −∞ array changes nothing. -/
theorem ref_rowMax (b : Fin 4096) :
    Read.val_main_v8 (F := Ideal) x0 x1 x2 x3 (ix1 b)
      = (Finset.univ : Finset (Fin 16384)).fold max ⊥ (fun s => logit x0 x1 x2 x3 b s) := by
  have h : S4096x16384.Reduces [1] S4096 := by decide
  have hf : (Read.val_main_v5 (F := Ideal) x0 x1 x2 x3 ∘ h.lift (ix1 b)) = fun k : Fin 16384 => logit x0 x1 x2 x3 b k :=
    funext fun k => by
      show Read.val_main_v5 (F := Ideal) x0 x1 x2 x3 (h.lift (ix1 b) k) = _
      rw [show h.lift (ix1 b) k = ix2 b (⟨k.val, k.isLt⟩ : Fin 16384) from
        funext fun c => Fin.ext (by fin_cases c <;> rfl), ref_logit]
      rfl
  rw [Read.val_main_v8_apply, Read.val_main_v7_apply, Read.val_main_cst_0_apply]
  unfold Read.val_main_v6
  rw [Host.reduce_eq_fold_single FloatOps.maximumf _ _ reducesTo_S4096x16384_S4096_d1 h h_S_, Read.val_main_cst_apply]
  show max (Ideal.ofBits .f32 0xFF800000#32)
      (Finset.fold max (Ideal.ofBits .f32 0xFF800000#32) (Read.val_main_v5 (F := Ideal) x0 x1 x2 x3 ∘ h.lift (ix1 b))
        (Finset.univ : Finset (Fin 16384))) = _
  rw [Cert.Gcn.ofBits_negInf_f32, hf]
  exact max_bot_left _

/-- With real inputs every logit is a real: a finite sum of products of reals, plus a product, plus a real. -/
theorem logit_real (h0 : AllReal x0) (h1 : AllReal x1) (h2 : AllReal x2) (h3 : AllReal x3) (b : Fin 4096)
    (s : Fin 16384) : ∃ r : ℝ, logit x0 x1 x2 x3 b s = (r : EReal) := by
  choose q hq using h0
  choose l hl using h1
  choose w hw using h2
  choose c hc using h3
  refine ⟨((∑ h : Fin 512, q (ix2 b h) * w (ix2 h.castSucc s)) + l (ix1 b) * w (ix2 (Fin.last 512) s)) + c (ix1 s), ?_⟩
  unfold logit
  simp only [hq, hl, hw, hc]
  rw [EReal.coe_add, EReal.coe_add, EReal.coe_mul, Cert.LibAttention.coe_sum]
  simp only [EReal.coe_mul]

/-- With real inputs the row's shift is a real: the maximum of the row's 16384 real logits. -/
theorem shift_real (h0 : AllReal x0) (h1 : AllReal x1) (h2 : AllReal x2) (h3 : AllReal x3) (b : Fin 4096) :
    ∃ r : ℝ, Read.val_main_v8 (F := Ideal) x0 x1 x2 x3 (ix1 b) = (r : EReal) := by
  choose t ht using fun s => logit_real x0 x1 x2 x3 h0 h1 h2 h3 b s
  rw [ref_rowMax]
  simp only [ht]
  exact Cert.LibAttention.fold_max_real t Finset.univ Finset.univ_nonempty

end Cert.PriorityRead

end
-- ==== Proof.RowLaw.lean ====
/-
  The law joining the two arrangements of one batch row, as a statement about finite sums of real numbers.

  Write `e s = exp (l s)`, `Z = Σ e s` and `P = Σ e s · imp s`.  Because `exp (l s − M) = e s / exp M`, the softmax weight
  `exp (l s − M) / Σ exp (l s' − M)` is `e s / Z` whatever the shift `M` is.  The two-pass divisor is therefore `P / Z + c`,
  and the fused divisor `P + c · Z` is `Z` times it; as `Z > 0`, one is zero exactly when the other is.  Away from that
  case `(e s / Z · imp s) / (P / Z + c) = (e s · imp s) / (P + c · Z)`, and the read follows by summing over the slots.

  The plan: every piece of either arrangement, on real data, is the coercion of a real expression; once both sides are
  coercions the law is an identity of real numbers.
-/
import proofs.«165449_g58497454572246_cont_9to1c4b_647_8_alg».proof.Proof.Spec
import proofs.«165449_g58497454572246_cont_9to1c4b_647_8_alg».proof.Proof.LibAttention

noncomputable section

open scoped BigOperators

namespace Cert.PriorityRead

open Idealize.ShloMosaic

section RowLaw

variable {ι δ : Type} [Fintype ι]

/-! ## The real quantities -/

/-- The real softmax weight of slot `s` after the shift `M`. -/
def softR (l : ι → ℝ) (M : ℝ) (s : ι) : ℝ := Real.exp (l s - M) / ∑ s', Real.exp (l s' - M)

/-- The real two-pass divisor `(Σ w s · imp s) + c`. -/
def rDenR (l imp : ι → ℝ) (M c : ℝ) : ℝ := (∑ s, softR l M s * imp s) + c

/-- The real fused divisor `P + c · Z`. -/
def kDenR (l imp : ι → ℝ) (c : ℝ) : ℝ := (∑ s, Real.exp (l s) * imp s) + c * ∑ s, Real.exp (l s)

/-- A sum of exponentials over a nonempty finite index type is positive, since every term is. -/
theorem sum_exp_pos [Nonempty ι] (t : ι → ℝ) : 0 < ∑ s, Real.exp (t s) :=
  Finset.sum_pos (fun s _ => Real.exp_pos (t s)) Finset.univ_nonempty

/-- The softmax weight does not depend on the shift: `exp (l s − M) / Σ exp (l s' − M) = exp (l s) / Σ exp (l s')`,
because the factor `1 / exp M` is common to the numerator and to every term of the denominator. -/
theorem softR_shift [Nonempty ι] (l : ι → ℝ) (M : ℝ) (s : ι) :
    softR l M s = Real.exp (l s) / ∑ s', Real.exp (l s') := by
  have hZ : (∑ s', Real.exp (l s')) ≠ 0 := (sum_exp_pos l).ne'
  have hM : Real.exp M ≠ 0 := (Real.exp_pos M).ne'
  simp only [softR, Real.exp_sub]
  rw [← Finset.sum_div]
  field_simp

/-- The two-pass divisor in terms of the unshifted sums: `(Σ w s · imp s) + c = P / Z + c`. -/
theorem rDenR_eq [Nonempty ι] (l imp : ι → ℝ) (M c : ℝ) :
    rDenR l imp M c = (∑ s, Real.exp (l s) * imp s) / (∑ s, Real.exp (l s)) + c := by
  simp only [rDenR, softR_shift]
  rw [Finset.sum_div]
  congr 1
  exact Finset.sum_congr rfl fun s _ => by ring

/-- The fused divisor is `Z` times the two-pass one, `P + c · Z = Z · (P / Z + c)` with `Z > 0`; so it is nonzero
as soon as the two-pass divisor is. -/
theorem kDenR_ne [Nonempty ι] (l imp : ι → ℝ) (M c : ℝ) (hD : rDenR l imp M c ≠ 0) : kDenR l imp c ≠ 0 := by
  have hZ : (∑ s, Real.exp (l s)) ≠ 0 := (sum_exp_pos l).ne'
  have h : kDenR l imp c = (∑ s, Real.exp (l s)) * rDenR l imp M c := by
    rw [rDenR_eq, kDenR]
    field_simp
  rw [h]
  exact mul_ne_zero hZ hD

/-- The law for one weight, in the reals: `(e s / Z · imp s) / (P / Z + c) = (e s · imp s) / (P + c · Z)`. -/
theorem weight_real [Nonempty ι] (l imp : ι → ℝ) (M c : ℝ) (hD : rDenR l imp M c ≠ 0) (s : ι) :
    softR l M s * imp s * (1 / rDenR l imp M c) = Real.exp (l s) * imp s * (1 / kDenR l imp c) := by
  have hZ : (∑ s, Real.exp (l s)) ≠ 0 := (sum_exp_pos l).ne'
  have hK : kDenR l imp c ≠ 0 := kDenR_ne l imp M c hD
  rw [rDenR_eq] at hD
  rw [kDenR] at hK
  rw [rDenR_eq, softR_shift, kDenR]
  field_simp

/-! ## Each piece is the coercion of a real expression -/

/-- On real logits and a real shift, the two-pass softmax weight is the coercion of the real softmax weight: the
denominator is a positive real, so the division is the real one. -/
theorem rSoft_coe [Nonempty ι] (l : ι → ℝ) (M : ℝ) (s : ι) :
    rSoft (fun s => (l s : EReal)) (M : EReal) s = (softR l M s : EReal) := by
  have hZ : (∑ s', Real.exp (l s' - M)) ≠ 0 := (sum_exp_pos fun s' => l s' - M).ne'
  simp only [rSoft, softR, ← EReal.coe_sub, Ideal.exp_coe, ← LibAttention.coe_sum]
  rw [Ideal.div_coe hZ, ← EReal.coe_mul, mul_one_div]

/-- On real data, the two-pass divisor is the coercion of the real two-pass divisor. -/
theorem rDen_coe [Nonempty ι] (l imp : ι → ℝ) (M c : ℝ) :
    rDen (c : EReal) (fun s => (l s : EReal)) (fun s => (imp s : EReal)) (M : EReal) = (rDenR l imp M c : EReal) := by
  simp only [rDen, rDenR, rSoft_coe, ← EReal.coe_mul, ← LibAttention.coe_sum, ← EReal.coe_add]

/-- On real data with a nonzero two-pass divisor, the two-pass weight is the coercion of `w s · imp s · (1 / D)`. -/
theorem rWeight_coe [Nonempty ι] (l imp : ι → ℝ) (M c : ℝ) (hD : rDenR l imp M c ≠ 0) (s : ι) :
    rWeight (c : EReal) (fun s => (l s : EReal)) (fun s => (imp s : EReal)) (M : EReal) s
      = ((softR l M s * imp s * (1 / rDenR l imp M c) : ℝ) : EReal) := by
  rw [rWeight, rDen_coe, rSoft_coe, Ideal.div_coe hD, ← EReal.coe_mul, ← EReal.coe_mul]

/-- On real data, the fused divisor is the coercion of the real fused divisor. -/
theorem kDen_coe (l imp : ι → ℝ) (c : ℝ) :
    kDen (c : EReal) (fun s => Ideal.exp (l s : EReal)) (fun s => (imp s : EReal)) = (kDenR l imp c : EReal) := by
  simp only [kDen, kDenR, Ideal.exp_coe, ← EReal.coe_mul, ← LibAttention.coe_sum, ← EReal.coe_add]

/-- With a nonzero fused divisor, the fused scale is the coercion of its real reciprocal. -/
theorem kScale_coe (l imp : ι → ℝ) (c : ℝ) (hK : kDenR l imp c ≠ 0) :
    kScale (c : EReal) (fun s => Ideal.exp (l s : EReal)) (fun s => (imp s : EReal))
      = ((1 / kDenR l imp c : ℝ) : EReal) := by
  rw [kScale, kDen_coe, Ideal.div_coe hK, one_mul]

/-! ## The law -/

/-- The two arrangements of a row agree on real data, for any real shift, whenever the two-pass divisor is nonzero:
both weights are the coercion of `(e s · imp s) / (P + c · Z)`, and the two-pass read, a sum of weights times memory
entries, is the fused read with the common factor `1 / (P + c · Z)` pulled out of the sum. -/
theorem row_law {ι δ : Type} [Fintype ι] [Nonempty ι] (l imp : ι → ℝ) (mem : ι → δ → ℝ) (M c : ℝ)
    (hD : rDen (c : EReal) (fun s => (l s : EReal)) (fun s => (imp s : EReal)) (M : EReal) ≠ 0) :
    (∀ s, rWeight (c : EReal) (fun s => (l s : EReal)) (fun s => (imp s : EReal)) (M : EReal) s
        = kWeight (c : EReal) (fun s => Ideal.exp (l s : EReal)) (fun s => (imp s : EReal)) s)
    ∧ (∀ d, rRead (c : EReal) (fun s => (l s : EReal)) (fun s => (imp s : EReal)) (M : EReal) (fun s d => (mem s d : EReal)) d
        = kRead (c : EReal) (fun s => Ideal.exp (l s : EReal)) (fun s => (imp s : EReal)) (fun s d => (mem s d : EReal)) d) := by
  have hDr : rDenR l imp M c ≠ 0 := by
    rw [rDen_coe] at hD
    exact_mod_cast hD
  have hK : kDenR l imp c ≠ 0 := kDenR_ne l imp M c hDr
  refine ⟨fun s => ?_, fun d => ?_⟩
  · rw [rWeight_coe l imp M c hDr, kWeight, kScale_coe l imp c hK, Ideal.exp_coe, ← EReal.coe_mul, ← EReal.coe_mul,
      weight_real l imp M c hDr]
  · rw [kRead, kScale_coe l imp c hK]
    simp only [rRead, rWeight_coe l imp M c hDr, Ideal.exp_coe, ← EReal.coe_mul, ← LibAttention.coe_sum]
    congr 1
    rw [Finset.sum_mul]
    refine Finset.sum_congr rfl fun s _ => ?_
    rw [weight_real l imp M c hDr]
    ring

end RowLaw

end Cert.PriorityRead

end
-- ==== Proof.RefValue.lean ====
/-
  The reference program's two results are the specification's.

  Row by row the reference computes the two-pass arrangement, with the row's maximum as the shift.  When every input
  entry is a real number the logits, the shift, the importance, the memory and the additive constant are all reals, and
  the row law then says that the two-pass arrangement, whatever its shift, equals the fused arrangement the
  specification is written in — provided the renormalisation's divisor is not zero.
-/
import proofs.«165449_g58497454572246_cont_9to1c4b_647_8_alg».proof.Proof.RefRows
import proofs.«165449_g58497454572246_cont_9to1c4b_647_8_alg».proof.Proof.RowLaw

noncomputable section

open scoped BigOperators

namespace Cert.PriorityRead

open Idealize.ShloMosaic Idealize.ShloMosaic.ValueIdx Cert.ReferenceIdeal Cert.ReferenceIdeal.Gen

/-- The renormalisation's additive constant is a real number: its word is a normal float, the significand 8796093
    scaled by 2⁻⁴³. -/
theorem epsW_real : ∃ c : ℝ, epsW = (c : EReal) :=
  ⟨8796093 * (2 ^ 43)⁻¹, by simp [epsW, Ideal.ofBits, Ideal.ieee]⟩

/-- The reference's weights are the specification's, on real inputs with nonzero divisors. -/
theorem ref_weight_eq (x0 : (⟨S4096x512, .f32⟩ : BufTy).Contents (Elt Ideal)) (x1 : (⟨S4096, .f32⟩ : BufTy).Contents (Elt Ideal))
    (x2 : (⟨S513x16384, .f32⟩ : BufTy).Contents (Elt Ideal)) (x3 x5 : (⟨S16384, .f32⟩ : BufTy).Contents (Elt Ideal))
    (h0 : AllReal x0) (h1 : AllReal x1) (h2 : AllReal x2) (h3 : AllReal x3) (h5 : AllReal x5)
    (hD : ∀ i : Cert.ReferenceIdeal.S4096x1.Idx, Cert.ReferenceIdeal.Read.val_main_v23 (F := Ideal) x0 x1 x2 x3 x5 i ≠ 0) :
    Cert.ReferenceIdeal.Read.val_main_v25 (F := Ideal) x0 x1 x2 x3 x5 = weightOut x0 x1 x2 x3 x5 := by
  funext i
  obtain ⟨b, s, rfl⟩ : ∃ (b : Fin 4096) (s : Fin 16384), i = ix2 b s := ⟨i 0, i 1, eq_ix2 i⟩
  rw [ref_weight]
  show _ = weightAt x0 x1 x2 x3 x5 b s
  unfold weightAt
  obtain ⟨c, hc⟩ := epsW_real
  choose l hl using logit_real x0 x1 x2 x3 h0 h1 h2 h3 b
  choose p hp using h5
  obtain ⟨M, hM⟩ := shift_real x0 x1 x2 x3 h0 h1 h2 h3 b
  have hden := hD (ix2 b (0 : Fin 1))
  rw [ref_den] at hden
  simp only [hl, hp, hM, hc] at hden ⊢
  exact (row_law l (fun s' => p (ix1 s')) (fun _ (_ : Unit) => (0 : ℝ)) M c hden).1 s

/-- The reference's read is the specification's, on real inputs with nonzero divisors. -/
theorem ref_read_eq (x0 : (⟨S4096x512, .f32⟩ : BufTy).Contents (Elt Ideal)) (x1 : (⟨S4096, .f32⟩ : BufTy).Contents (Elt Ideal))
    (x2 : (⟨S513x16384, .f32⟩ : BufTy).Contents (Elt Ideal)) (x3 : (⟨S16384, .f32⟩ : BufTy).Contents (Elt Ideal))
    (x4 : (⟨S16384x64, .f32⟩ : BufTy).Contents (Elt Ideal)) (x5 : (⟨S16384, .f32⟩ : BufTy).Contents (Elt Ideal))
    (h0 : AllReal x0) (h1 : AllReal x1) (h2 : AllReal x2) (h3 : AllReal x3) (h4 : AllReal x4) (h5 : AllReal x5)
    (hD : ∀ i : Cert.ReferenceIdeal.S4096x1.Idx, Cert.ReferenceIdeal.Read.val_main_v23 (F := Ideal) x0 x1 x2 x3 x5 i ≠ 0) :
    Cert.ReferenceIdeal.Read.val_main_v26 (F := Ideal) x0 x1 x2 x3 x4 x5 = readOut x0 x1 x2 x3 x4 x5 := by
  funext i
  obtain ⟨b, d, rfl⟩ : ∃ (b : Fin 4096) (d : Fin 64), i = ix2 b d := ⟨i 0, i 1, eq_ix2 i⟩
  rw [ref_read]
  show _ = readAt x0 x1 x2 x3 x4 x5 b d
  unfold readAt
  obtain ⟨c, hc⟩ := epsW_real
  choose l hl using logit_real x0 x1 x2 x3 h0 h1 h2 h3 b
  choose m hm using h4
  choose p hp using h5
  obtain ⟨M, hM⟩ := shift_real x0 x1 x2 x3 h0 h1 h2 h3 b
  have hden := hD (ix2 b (0 : Fin 1))
  rw [ref_den] at hden
  simp only [hl, hp, hm, hM, hc] at hden ⊢
  exact (row_law l (fun s' => p (ix1 s')) (fun s' d' => m (ix2 s' d')) M c hden).2 d

end Cert.PriorityRead

end
-- ==== Proof.PreFacts.lean ====
/-
  What the precondition says about the six argument arrays, at the instance where a float is an extended real.

  The precondition is a printed pure function: a chain of array operations ending in a one-bit scalar, required to
  be 1. It is the conjunction of seven tests, each of the form "for every index, a comparison holds":

  * for each of the six arguments x, |x i| < +inf at every index i. Here |x| is max x (-x), the comparison is the
    order of the extended reals, and the word 0x7F800000 denotes the top element; an extended real whose absolute
    value is below the top is neither infinity, that is, it is a real number;
  * the array (sum over slots of softmax(logits) * importance) + 1e-6, of shape [4096, 1], is different from the
    zero word's value 0 at every index. The predicate recomputes that array with exactly the operations by which
    the reference program computes its renormalisation divisor, so the two arrays are the same function of the
    arguments, and the divisor is nowhere zero.

  A conjunction of one-bit words is 1 exactly when both words are 1, and an and-reduction over all axes that is 1
  had a 1 at every index; these two facts take the hypothesis apart. Nothing here evaluates an array: the chain of
  operations is only unfolded into the composition of operation symbols that it abbreviates.
-/
import proofs.«165449_g58497454572246_cont_9to1c4b_647_8_alg».proof.Proof.Spec
import proofs.«165449_g58497454572246_cont_9to1c4b_647_8_alg».proof.Proof.Gen.Pre_finite_inputs
import proofs.«165449_g58497454572246_cont_9to1c4b_647_8_alg».proof.Proof.Gen.ReferenceIdeal.Read
import Idealize.ShloMosaic.Lib.ReduceAll
import Idealize.ShloMosaic.Lib.ValueIdx
import Idealize.ShloMosaic.PureOps.Ideal
import Idealize.ShloMosaic.PureOps.Ideal.Laws

set_option maxRecDepth 16384

noncomputable section

namespace Cert.PriorityRead

open Idealize.ShloMosaic

namespace PreFacts

/-- The shape of a scalar has exactly one index. -/
instance subsingleton_scalar_idx : Subsingleton (⟨0, ![]⟩ : Shape).Idx :=
  ⟨fun a b => funext fun d => d.elim0⟩

/-- A one-bit word made from a Boolean is 1 exactly when the Boolean is true. -/
theorem ofBool_eq_one_iff (b : Bool) : BitVec.ofBool b = 1#1 ↔ b = true := by cases b <;> decide

/-- The f32 word of +infinity denotes the top of the extended reals. -/
theorem ofBits_inf_f32 : Ideal.ofBits .f32 0x7F800000#32 = (⊤ : EReal) := by
  simp [Ideal.ofBits, Ideal.ieee]

/-- An extended real whose absolute value is below +infinity is a real number. -/
theorem real_of_abs_lt_inf (x : EReal)
    (h : Ideal.cmp .olt (max x (-x)) (Ideal.ofBits .f32 0x7F800000#32) = 1#1) : ∃ r : ℝ, x = (r : EReal) := by
  rw [ofBits_inf_f32] at h
  unfold Ideal.cmp at h
  rw [ofBool_eq_one_iff] at h
  simp only [decide_eq_true_eq] at h
  induction x using EReal.rec with
  | bot => simp at h
  | coe r => exact ⟨r, rfl⟩
  | top => simp at h

/-- One "all entries have absolute value below +infinity" test, read back: if the conjunction over every index of
    the comparison |x i| < +inf came out 1, every entry of x is a real number. Generic in the array's shape. -/
theorem allReal_of_all_abs_lt_inf {S : Shape} {axes : List (Fin S.rank)}
    (hb : (⟨0, ![]⟩ : Shape).BroadcastsInDim S (![] : Fin 0 → Fin S.rank))
    (hr : S.ReducesTo axes ⟨0, ![]⟩) (hu : 0 < (⟨0, ![]⟩ : Shape).numel)
    (x : S.Idx → EReal) (init : IVec ⟨0, ![]⟩ 1)
    (h : Host.reduce IntOp.andi
          (cmpf .olt (Host.absf (F := Ideal) (φ := .f32) x)
            (broadcastInDim S ![] hb (constant (F := Ideal) ⟨0, ![]⟩ .f32 0x7F800000#32)))
          init hr hu ValueIdx.ix0 = 1#1) : AllReal x := by
  intro i
  have e := Host.reduce_andi_all _ _ hr hu _ h i
  exact real_of_abs_lt_inf (x i) e

/-- A comparison "not equal to the zero word" that came out 1 says the value is not zero. -/
theorem ne_zero_of_une_zero (x : EReal)
    (h : Ideal.cmp .une x (Ideal.ofBits .f32 0x00000000#32) = 1#1) : x ≠ 0 := by
  rw [Ideal.ofBits_zero_f32] at h
  unfold Ideal.cmp at h
  rw [ofBool_eq_one_iff] at h
  simpa only [decide_eq_true_eq] using h

/-- One "no entry equals zero" test, read back: if the conjunction over every index of the comparison
    y i ≠ 0 came out 1, no entry of y is zero. Generic in the array's shape. -/
theorem ne_zero_of_all_une_zero {S : Shape} {axes : List (Fin S.rank)}
    (hb : (⟨0, ![]⟩ : Shape).BroadcastsInDim S (![] : Fin 0 → Fin S.rank))
    (hr : S.ReducesTo axes ⟨0, ![]⟩) (hu : 0 < (⟨0, ![]⟩ : Shape).numel)
    (y : S.Idx → EReal) (init : IVec ⟨0, ![]⟩ 1)
    (h : Host.reduce IntOp.andi
          (cmpf (F := Ideal) (φ := .f32) .une y
            (broadcastInDim S ![] hb (constant (F := Ideal) ⟨0, ![]⟩ .f32 0x00000000#32)))
          init hr hu ValueIdx.ix0 = 1#1) : ∀ i, y i ≠ 0 := by
  intro i
  have e := Host.reduce_andi_all _ _ hr hu _ h i
  exact ne_zero_of_une_zero (y i) e

end PreFacts

open PreFacts Cert.Pre_finite_inputs Cert.Pre_finite_inputs.Facts in
/-- The precondition, read back. The printed predicate is the conjunction of seven "for all entries" tests. Unfolding its
    chain of operations (symbolically: no array is evaluated) and splitting the one-bit conjunctions gives the seven
    tests one by one. Six say that every entry of an argument has absolute value below +infinity, so is a real
    number. The seventh says that an array is nowhere zero; that array is, operation for operation, the composition
    that defines the reference program's renormalisation divisor (the two texts differ only in the names of the
    shapes and in the proofs of the shape relations, which are irrelevant), so the divisor is nowhere zero. -/
theorem pre_facts (x0 : (⟨Cert.Pre_finite_inputs.S4096x512, .f32⟩ : BufTy).Contents (Elt Ideal))
    (x1 : (⟨Cert.Pre_finite_inputs.S4096, .f32⟩ : BufTy).Contents (Elt Ideal))
    (x2 : (⟨Cert.Pre_finite_inputs.S513x16384, .f32⟩ : BufTy).Contents (Elt Ideal))
    (x3 : (⟨Cert.Pre_finite_inputs.S16384, .f32⟩ : BufTy).Contents (Elt Ideal))
    (x4 : (⟨Cert.Pre_finite_inputs.S16384x64, .f32⟩ : BufTy).Contents (Elt Ideal))
    (x5 : (⟨Cert.Pre_finite_inputs.S16384, .f32⟩ : BufTy).Contents (Elt Ideal))
    (h : Cert.Pre_finite_inputs.fn (F := Ideal) x0 x1 x2 x3 x4 x5 = fun _ => 1#1) :
    AllReal x0 ∧ AllReal x1 ∧ AllReal x2 ∧ AllReal x3 ∧ AllReal x4 ∧ AllReal x5
      ∧ ∀ i : Cert.ReferenceIdeal.S4096x1.Idx,
          Cert.ReferenceIdeal.Read.val_main_v23 (F := Ideal) x0 x1 x2 x3 x5 i ≠ 0 := by
  have e := congrFun h ValueIdx.ix0
  dsimp only [Cert.Pre_finite_inputs.fn, fn_part1, fn_part2, fn_part3] at e
  dsimp only [andi] at e
  simp only [IntOp.andi_eq_one] at e
  obtain ⟨⟨⟨⟨⟨⟨h0, h1⟩, h2⟩, h3⟩, h4⟩, h5⟩, h6⟩ := e
  -- the seventh test's array is the reference's divisor: compared as whole arrays, stage by stage
  have h6' : Host.reduce IntOp.andi
      (cmpf (F := Ideal) (φ := .f32) .une (Cert.ReferenceIdeal.Read.val_main_v23 (F := Ideal) x0 x1 x2 x3 x5)
        (broadcastInDim S4096x1 ![] bcast_S_S4096x1 (constant (F := Ideal) S_ .f32 0x00000000#32)))
      (constantI S_ 1 1#1) reducesTo_S4096x1_S_d0_1 h_S_ ValueIdx.ix0 = 1#1 := h6
  exact ⟨allReal_of_all_abs_lt_inf _ _ _ x0 _ h0, allReal_of_all_abs_lt_inf _ _ _ x1 _ h1,
    allReal_of_all_abs_lt_inf _ _ _ x2 _ h2, allReal_of_all_abs_lt_inf _ _ _ x3 _ h3,
    allReal_of_all_abs_lt_inf _ _ _ x4 _ h4, allReal_of_all_abs_lt_inf _ _ _ x5 _ h5,
    ne_zero_of_all_une_zero _ _ _ _ _ h6'⟩

end Cert.PriorityRead

end
-- ==== Proof.lean ====
/-
  The proof of `Cert.Claim`.

  Both programs compute, from a query batch, the importance-reweighted softmax read of a slot memory.  The kernel does
  it in the fused arrangement — unnormalised exponentials, one auxiliary matrix product giving per row the sum of the
  exponentials, their importance-weighted sum and their product with the importance-scaled memory, and one scale
  `1 / (P + ε · Z)` — and the reference in the two-pass arrangement — softmax with the row maximum subtracted, then the
  renormalisation `(w · imp) / (Σ w · imp + ε)` and a second matrix product.  At the ideal instance the two are one
  function of the arguments wherever the reference's renormalisation divisor is nonzero, which the precondition states
  beside the finiteness of the inputs.

  * The frames of the two kernel programs: each runs its 17 host operations and its one pipelined region of 32 grid
    points to the end, faults nowhere and leaves the six argument arrays as launched (`BitsFrameRun`, `IdealFrameRun`).
  * The reference's frame is its run with the results dropped.
  * The idealization rewrote no operation, so `preserves` states nothing.
  * `algebraic`: the kernel's two result arrays are the specification's (`KernelValue`: the block a grid point writes
    is its 128 rows of the specification, and the blocks cover the arrays); the reference's are the specification's
    too, given real inputs and a nonzero divisor (`RefValue`, through the row law of `RowLaw`); and the precondition
    gives exactly those two facts (`PreFacts`).
-/
import proofs.«165449_g58497454572246_cont_9to1c4b_647_8_alg».proof.Defs
import proofs.«165449_g58497454572246_cont_9to1c4b_647_8_alg».proof.Proof.Gen.Kernel
import proofs.«165449_g58497454572246_cont_9to1c4b_647_8_alg».proof.Proof.Gen.Kernel.Skeleton
import proofs.«165449_g58497454572246_cont_9to1c4b_647_8_alg».proof.Proof.Gen.Kernel.Launch
import proofs.«165449_g58497454572246_cont_9to1c4b_647_8_alg».proof.Proof.Gen.Kernel.Points
import proofs.«165449_g58497454572246_cont_9to1c4b_647_8_alg».proof.Proof.Gen.KernelIdeal
import proofs.«165449_g58497454572246_cont_9to1c4b_647_8_alg».proof.Proof.Gen.KernelIdeal.Skeleton
import proofs.«165449_g58497454572246_cont_9to1c4b_647_8_alg».proof.Proof.Gen.KernelIdeal.Launch
import proofs.«165449_g58497454572246_cont_9to1c4b_647_8_alg».proof.Proof.Gen.KernelIdeal.Points
import proofs.«165449_g58497454572246_cont_9to1c4b_647_8_alg».proof.Proof.Gen.ReferenceIdeal
import proofs.«165449_g58497454572246_cont_9to1c4b_647_8_alg».proof.Proof.Gen.ReferenceIdeal.Run
import proofs.«165449_g58497454572246_cont_9to1c4b_647_8_alg».proof.Proof.Gen.ReferenceIdeal.Read
import proofs.«165449_g58497454572246_cont_9to1c4b_647_8_alg».proof.Proof.Gen.Pre_finite_inputs
import proofs.«165449_g58497454572246_cont_9to1c4b_647_8_alg».proof.Proof.BitsFrameRun
import proofs.«165449_g58497454572246_cont_9to1c4b_647_8_alg».proof.Proof.IdealFrameRun
import proofs.«165449_g58497454572246_cont_9to1c4b_647_8_alg».proof.Proof.KernelValue
import proofs.«165449_g58497454572246_cont_9to1c4b_647_8_alg».proof.Proof.RefValue
import proofs.«165449_g58497454572246_cont_9to1c4b_647_8_alg».proof.Proof.PreFacts
import Idealize.ShloMosaic.Adequacy
import Idealize.ShloMosaic.Init

noncomputable section

namespace Cert.Proof

open Idealize.ShloMosaic Idealize.SL.Sem

/-- The kernel as printed runs to the end without a fault and keeps its arguments. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- The reference's run, its two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both idealized programs end with the specification's two arrays of the (agreeing) arguments: the kernel always, the
    reference because the precondition makes every input real and its renormalisation divisor nonzero in every row. -/
theorem algebraic : Cert.algebraic_KernelIdeal_ReferenceIdeal := by
  intro m ρ m' ρ' hpre hagree
  refine ⟨fun c => Cert.PriorityRead.specR m c, fun c => Cert.PriorityRead.specW m c,
    Cert.PriorityRead.kernel_run m ρ, ?_⟩
  refine (θ_run Cert.ReferenceIdeal.defs _ _).mono (fun _ h c => ?_) (Cert.ReferenceIdeal.Value.run (F := Ideal) m' ρ')
  obtain ⟨h26, h25, hargs⟩ := h c
  obtain ⟨a0, a1, a2, a3, a4, a5⟩ := hagree c
  obtain ⟨r0, r1, r2, r3, r4, r5, hD⟩ := Cert.PriorityRead.pre_facts _ _ _ _ _ _ (hpre c)
  refine ⟨?_, ?_, hargs⟩
  · rw [h26, Cert.ReferenceIdeal.Read.val_main_v26_eq, a0, a1, a2, a3, a4, a5]
    exact Cert.PriorityRead.ref_read_eq _ _ _ _ _ _ r0 r1 r2 r3 r4 r5 hD
  · rw [h25, Cert.ReferenceIdeal.Read.val_main_v25_eq, a0, a1, a2, a3, a5]
    exact Cert.PriorityRead.ref_weight_eq _ _ _ _ _ r0 r1 r2 r3 r5 hD

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
